-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S10000 : Shape := ⟨1, ![10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S10000x128 .f32) (main_arg1 : IVec S2x640000 32) (main_arg2 : IVec S10000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S10000x128 : Shape := ⟨2, ![10000, 128]⟩
abbrev S2x640000 : Shape := ⟨2, ![2, 640000]⟩
abbrev S10000 : Shape := ⟨1, ![10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S650000 : Shape := ⟨1, ![650000]⟩
abbrev S_ : Shape := ⟨0, ![]⟩
abbrev S650000x1 : Shape := ⟨2, ![650000, 1]⟩
abbrev S1x128 : Shape := ⟨2, ![1, 128]⟩
abbrev S2000x128 : Shape := ⟨2, ![2000, 128]⟩
abbrev S650000x128 : Shape := ⟨2, ![650000, 128]⟩
abbrev S64x128 : Shape := ⟨2, ![64, 128]⟩
abbrev S10000x1 : Shape := ⟨2, ![10000, 1]⟩
abbrev S64 : Shape := ⟨1, ![64]⟩
abbrev S64x1 : Shape := ⟨2, ![64, 1]⟩
abbrev S1x1 : Shape := ⟨2, ![1, 1]⟩

abbrev nBuf : Space → Nat
  | .hbm => 117
  | .vmem => 28
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S10000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S10000, .i32⟩
  | .hbm, ⟨12, _⟩ => ⟨S1x640000, .i32⟩
  | .hbm, ⟨13, _⟩ => ⟨S640000, .i32⟩
  | .hbm, ⟨14, _⟩ => ⟨S650000, .i32⟩
  | .hbm, ⟨15, _⟩ => ⟨S1x640000, .i32⟩
  | .hbm, ⟨16, _⟩ => ⟨S640000, .i32⟩
  | .hbm, ⟨17, _⟩ => ⟨S650000, .i32⟩
  | .hbm, ⟨18, _⟩ => ⟨S_, .f32⟩
  | .hbm, ⟨19, _⟩ => ⟨S650000, .f32⟩
  | .hbm, ⟨20, _⟩ => ⟨S_, .f32⟩
  | .hbm, ⟨21, _⟩ => ⟨S10000, .f32⟩
  | .hbm, ⟨22, _⟩ => ⟨S650000x1, .i32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S10000, .f32⟩
  | .hbm, ⟨28, _⟩ => ⟨S_, .i32⟩
  | .hbm, ⟨29, _⟩ => ⟨S650000, .i32⟩
  | .hbm, ⟨30, _⟩ => ⟨S650000, .i1⟩
  | .hbm, ⟨31, _⟩ => ⟨S_, .i32⟩
  | .hbm, ⟨32, _⟩ => ⟨S650000, .i32⟩
  | .hbm, ⟨33, _⟩ => ⟨S650000, .i32⟩
  | .hbm, ⟨34, _⟩ => ⟨S650000, .i32⟩
  | .hbm, ⟨35, _⟩ => ⟨S650000x1, .i32⟩
  | .hbm, ⟨36, _⟩ => ⟨S650000, .f32⟩
  | .hbm, ⟨37, _⟩ => ⟨S_, .i32⟩
  | .hbm, ⟨38, _⟩ => ⟨S650000, .i32⟩
  | .hbm, ⟨39, _⟩ => ⟨S650000, .i1⟩
  | .hbm, ⟨40, _⟩ => ⟨S_, .i32⟩
  | .hbm, ⟨41, _⟩ => ⟨S650000, .i32⟩
  | .hbm, ⟨42, _⟩ => ⟨S650000, .i32⟩
  | .hbm, ⟨43, _⟩ => ⟨S650000, .i32⟩
  | .hbm, ⟨44, _⟩ => ⟨S650000x1, .i32⟩
  | .hbm, ⟨45, _⟩ => ⟨S650000, .f32⟩
  | .hbm, ⟨46, _⟩ => ⟨S650000, .f32⟩
  | .hbm, ⟨47, _⟩ => ⟨S_, .f32⟩
  | .hbm, ⟨48, _⟩ => ⟨S1x128, .f32⟩
  | .hbm, ⟨49, _⟩ => ⟨S10000x128, .f32⟩
  | .hbm, ⟨50, _⟩ => ⟨S650000x1, .f32⟩
  | .hbm, ⟨51, _⟩ => ⟨S_, .i32⟩
  | .hbm, ⟨52, _⟩ => ⟨S650000, .i32⟩
  | .hbm, ⟨53, _⟩ => ⟨S650000, .i1⟩
  | .hbm, ⟨54, _⟩ => ⟨S_, .i32⟩
  | .hbm, ⟨55, _⟩ => ⟨S650000, .i32⟩
  | .hbm, ⟨56, _⟩ => ⟨S650000, .i32⟩
  | .hbm, ⟨57, _⟩ => ⟨S650000, .i32⟩
  | .hbm, ⟨58, _⟩ => ⟨S650000x1, .i32⟩
  | .hbm, ⟨59, _⟩ => ⟨S650000x128, .f32⟩
  | .hbm, ⟨60, _⟩ => ⟨S650000x128, .f32⟩
  | .hbm, ⟨61, _⟩ => ⟨S650000x128, .f32⟩
  | .hbm, ⟨62, _⟩ => ⟨S_, .f32⟩
  | .hbm, ⟨63, _⟩ => ⟨S10000x128, .f32⟩
  | .hbm, ⟨64, _⟩ => ⟨S650000x1, .i32⟩
  | .hbm, ⟨65, _⟩ => ⟨S10000x128, .f32⟩
  | .hbm, ⟨66, _⟩ => ⟨S1x128, .f32⟩
  | .hbm, ⟨67, _⟩ => ⟨S10000x128, .f32⟩
  | .hbm, ⟨68, _⟩ => ⟨S650000x1, .f32⟩
  | .hbm, ⟨69, _⟩ => ⟨S_, .i32⟩
  | .hbm, ⟨70, _⟩ => ⟨S650000, .i32⟩
  | .hbm, ⟨71, _⟩ => ⟨S650000, .i1⟩
  | .hbm, ⟨72, _⟩ => ⟨S_, .i32⟩
  | .hbm, ⟨73, _⟩ => ⟨S650000, .i32⟩
  | .hbm, ⟨74, _⟩ => ⟨S650000, .i32⟩
  | .hbm, ⟨75, _⟩ => ⟨S650000, .i32⟩
  | .hbm, ⟨76, _⟩ => ⟨S650000x1, .i32⟩
  | .hbm, ⟨77, _⟩ => ⟨S650000x128, .f32⟩
  | .hbm, ⟨78, _⟩ => ⟨S650000x128, .f32⟩
  | .hbm, ⟨79, _⟩ => ⟨S650000x128, .f32⟩
  | .hbm, ⟨80, _⟩ => ⟨S_, .f32⟩
  | .hbm, ⟨81, _⟩ => ⟨S10000x128, .f32⟩
  | .hbm, ⟨82, _⟩ => ⟨S650000x1, .i32⟩
  | .hbm, ⟨83, _⟩ => ⟨S10000x128, .f32⟩
  | .hbm, ⟨84, _⟩ => ⟨S1x128, .f32⟩
  | .hbm, ⟨85, _⟩ => ⟨S10000x128, .f32⟩
  | .hbm, ⟨86, _⟩ => ⟨S650000x1, .f32⟩
  | .hbm, ⟨87, _⟩ => ⟨S_, .i32⟩
  | .hbm, ⟨88, _⟩ => ⟨S650000, .i32⟩
  | .hbm, ⟨89, _⟩ => ⟨S650000, .i1⟩
  | .hbm, ⟨90, _⟩ => ⟨S_, .i32⟩
  | .hbm, ⟨91, _⟩ => ⟨S650000, .i32⟩
  | .hbm, ⟨92, _⟩ => ⟨S650000, .i32⟩
  | .hbm, ⟨93, _⟩ => ⟨S650000, .i32⟩
  | .hbm, ⟨94, _⟩ => ⟨S650000x1, .i32⟩
  | .hbm, ⟨95, _⟩ => ⟨S650000x128, .f32⟩
  | .hbm, ⟨96, _⟩ => ⟨S650000x128, .f32⟩
  | .hbm, ⟨97, _⟩ => ⟨S650000x128, .f32⟩
  | .hbm, ⟨98, _⟩ => ⟨S_, .f32⟩
  | .hbm, ⟨99, _⟩ => ⟨S10000x128, .f32⟩
  | .hbm, ⟨100, _⟩ => ⟨S650000x1, .i32⟩
  | .hbm, ⟨101, _⟩ => ⟨S10000x128, .f32⟩
  | .hbm, ⟨102, _⟩ => ⟨S1x128, .f32⟩
  | .hbm, ⟨103, _⟩ => ⟨S10000x128, .f32⟩
  | .hbm, ⟨104, _⟩ => ⟨S_, .f32⟩
  | .hbm, ⟨105, _⟩ => ⟨S64x128, .f32⟩
  | .hbm, ⟨106, _⟩ => ⟨S10000x1, .i32⟩
  | .hbm, ⟨107, _⟩ => ⟨S64x128, .f32⟩
  | .hbm, ⟨108, _⟩ => ⟨S_, .f32⟩
  | .hbm, ⟨109, _⟩ => ⟨S10000, .f32⟩
  | .hbm, ⟨110, _⟩ => ⟨S_, .f32⟩
  | .hbm, ⟨111, _⟩ => ⟨S64, .f32⟩
  | .hbm, ⟨112, _⟩ => ⟨S10000x1, .i32⟩
  | .hbm, ⟨113, _⟩ => ⟨S64, .f32⟩
  | .hbm, ⟨114, _⟩ => ⟨S64x1, .f32⟩
  | .hbm, ⟨115, _⟩ => ⟨S1x1, .f32⟩
  | .hbm, ⟨116, _⟩ => ⟨S64x1, .f32⟩
  | .local _ .vmem, ⟨0, _⟩ => ⟨S2000x128, .f32⟩
  | .local _ .vmem, ⟨1, _⟩ => ⟨S2000x128, .f32⟩
  | .local _ .vmem, ⟨2, _⟩ => ⟨S1x128, .f32⟩
  | .local _ .vmem, ⟨3, _⟩ => ⟨S128x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S1x128, .f32⟩
  | .local _ .vmem, ⟨9, _⟩ => ⟨S128x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S1x128, .f32⟩
  | .local _ .vmem, ⟨21, _⟩ => ⟨S2000x128, .f32⟩
  | .local _ .vmem, ⟨22, _⟩ => ⟨S2000x128, .f32⟩
  | .local _ .vmem, ⟨23, _⟩ => ⟨S64x128, .f32⟩
  | .local _ .vmem, ⟨24, _⟩ => ⟨S64x1, .f32⟩
  | .local _ .vmem, ⟨25, _⟩ => ⟨S128x1, .f32⟩
  | .local _ .vmem, ⟨26, _⟩ => ⟨S1x1, .f32⟩
  | .local _ .vmem, ⟨27, _⟩ => ⟨S64x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg4_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem1_0 : DmaSem sig := 24
abbrev cc4_sem2_0 : DmaSem sig := 25
abbrev cc4_sem3_0 : DmaSem sig := 26
abbrev cc4_sem4_0 : DmaSem sig := 27

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x640000_S1x640000_0_0 : S2x640000.Slices ![0, 0] S1x640000
  shapeCasts_S1x640000_S640000 : S1x640000.ShapeCasts S640000
  concatenates_S640000_S10000_S650000_d0 : Shape.Concatenates [S640000, S10000] S650000 0
  slices_S2x640000_S1x640000_1_0 : S2x640000.Slices ![1, 0] S1x640000
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S_S1x128 : S_.BroadcastsInDim S1x128 (![] : Fin 0 → Fin S1x128.rank)
  inb_S2000x128_S2000x128_0_0 : ∀ a, (![0, 0] : Fin 2 → Nat) a + S2000x128.size a ≤ S2000x128.size a
  h_S2000x128 : 0 < S2000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  shapeCasts_S128_S1x128 : S128.ShapeCasts S1x128
  shapeCasts_S2000x128_S2000x128 : S2000x128.ShapeCasts S2000x128
  bcast_S_S64x128 : S_.BroadcastsInDim S64x128 (![] : Fin 0 → Fin S64x128.rank)
  bcast_S10000_S10000x1_0 : S10000.BroadcastsInDim S10000x1 (![0] : Fin 1 → Fin S10000x1.rank)
  bcast_S_S64 : S_.BroadcastsInDim S64 (![] : Fin 0 → Fin S64.rank)
  shapeCasts_S64_S64x1 : S64.ShapeCasts S64x1
  shapeCasts_S1_S1x1 : S1.ShapeCasts S1x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  dot_S2000x128_S128x128_S2000x128_1_0_0_1_n_n_wf : DotDims.WF S2000x128 S128x128 S2000x128 [1] [0] [0] [1] [] []
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1
  scatter_S64x128_S10000x1_S10000x128_1_0_0_1_wf : ScatterDims.WF S64x128 S10000x1 S10000x128 [1] [0] [0] 1
  scatter_S64_S10000x1_S10000_n_0_0_1_wf : ScatterDims.WF S64 S10000x1 S10000 [] [0] [0] 1
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S10000x128.size a
  hwx0_3 : ∀ i : grid0.Coords, EltTy.bits .f32 = 32 ∨ (Rect.block (s := S10000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S10000x128.size a
  hwx1_3 : ∀ i : grid1.Coords, EltTy.bits .f32 = 32 ∨ (Rect.block (s := S10000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S10000x128.size a
  hwx2_0 : ∀ i : grid2.Coords, EltTy.bits .f32 = 32 ∨ (Rect.block (s := S10000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S10000x128.size a
  hwx2_3 : ∀ i : grid2.Coords, EltTy.bits .f32 = 32 ∨ (Rect.block (s := S10000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S10000x128.size a
  hwx3_0 : ∀ i : grid3.Coords, EltTy.bits .f32 = 32 ∨ (Rect.block (s := S10000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S10000x128.size a
  hwx3_2 : ∀ i : grid3.Coords, EltTy.bits .f32 = 32 ∨ (Rect.block (s := S10000x128) S2000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x1.size a ≤ S128x1.size a
  hwx4_2 : ∀ i : grid4.Coords, EltTy.bits .f32 = 32 ∨ (Rect.block (s := S128x1) S128x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x1.size a ≤ S64x1.size a
  hwx4_4 : ∀ i : grid4.Coords, EltTy.bits .f32 = 32 ∨ (Rect.block (s := S64x1) S64x1.size (cc4_transform_4 i) (hinb4_4 i)).WholeWords (EltTy.packing .f32)

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf
def scatter_S64x128_S10000x1_S10000x128_1_0_0_1 : ScatterDims S64x128 S10000x1 S10000x128 where
  updateWindowDims := [1]
  insertedWindowDims := [0]
  scatterDimsToOperandDims := [0]
  indexVectorDim := 1
  wf := scatter_S64x128_S10000x1_S10000x128_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v78) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v83) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S128x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v84) S1x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v85) S64x1.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S10000 : Shape := ⟨1, ![10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S64x128 : Shape := ⟨2, ![64, 128]⟩
abbrev S10000x1 : Shape := ⟨2, ![10000, 1]⟩
abbrev S64 : Shape := ⟨1, ![64]⟩
abbrev S64x1 : Shape := ⟨2, ![64, 1]⟩
abbrev S1x1 : Shape := ⟨2, ![1, 1]⟩

abbrev nBuf : Space → Nat
  | .hbm => 133
  | .vmem => 0
  | .smem => 0
  | _ => 0

abbrev hbmTy0_0 (i : Nat) : BufTy := match i % 128 with
  | 0 => ⟨S10000x128, .f32⟩
  | 1 => ⟨S2x640000, .i32⟩
  | 2 => ⟨S10000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S10000, .i32⟩
  | 12 => ⟨S1x640000, .i32⟩
  | 13 => ⟨S640000, .i32⟩
  | 14 => ⟨S650000, .i32⟩
  | 15 => ⟨S1x640000, .i32⟩
  | 16 => ⟨S640000, .i32⟩
  | 17 => ⟨S650000, .i32⟩
  | 18 => ⟨S_, .f32⟩
  | 19 => ⟨S650000, .f32⟩
  | 20 => ⟨S_, .f32⟩
  | 21 => ⟨S10000, .f32⟩
  | 22 => ⟨S650000x1, .i32⟩
  | 23 => ⟨S10000, .f32⟩
  | 24 => ⟨S_, .f32⟩
  | 25 => ⟨S10000, .f32⟩
  | 26 => ⟨S10000, .f32⟩
  | 27 => ⟨S10000, .f32⟩
  | 28 => ⟨S_, .i32⟩
  | 29 => ⟨S650000, .i32⟩
  | 30 => ⟨S650000, .i1⟩
  | 31 => ⟨S_, .i32⟩
  | 32 => ⟨S650000, .i32⟩
  | 33 => ⟨S650000, .i32⟩
  | 34 => ⟨S650000, .i32⟩
  | 35 => ⟨S650000x1, .i32⟩
  | 36 => ⟨S650000, .f32⟩
  | 37 => ⟨S_, .i32⟩
  | 38 => ⟨S650000, .i32⟩
  | 39 => ⟨S650000, .i1⟩
  | 40 => ⟨S_, .i32⟩
  | 41 => ⟨S650000, .i32⟩
  | 42 => ⟨S650000, .i32⟩
  | 43 => ⟨S650000, .i32⟩
  | 44 => ⟨S650000x1, .i32⟩
  | 45 => ⟨S650000, .f32⟩
  | 46 => ⟨S650000, .f32⟩
  | 47 => ⟨S10000x128, .f32⟩
  | 48 => ⟨S650000x1, .f32⟩
  | 49 => ⟨S_, .i32⟩
  | 50 => ⟨S650000, .i32⟩
  | 51 => ⟨S650000, .i1⟩
  | 52 => ⟨S_, .i32⟩
  | 53 => ⟨S650000, .i32⟩
  | 54 => ⟨S650000, .i32⟩
  | 55 => ⟨S650000, .i32⟩
  | 56 => ⟨S650000x1, .i32⟩
  | 57 => ⟨S650000x128, .f32⟩
  | 58 => ⟨S650000x128, .f32⟩
  | 59 => ⟨S650000x128, .f32⟩
  | 60 => ⟨S_, .f32⟩
  | 61 => ⟨S10000x128, .f32⟩
  | 62 => ⟨S650000x1, .i32⟩
  | 63 => ⟨S10000x128, .f32⟩
  | 64 => ⟨S1x128, .f32⟩
  | 65 => ⟨S10000x128, .f32⟩
  | 66 => ⟨S10000x128, .f32⟩
  | 67 => ⟨S_, .f32⟩
  | 68 => ⟨S10000x128, .f32⟩
  | 69 => ⟨S10000x128, .f32⟩
  | 70 => ⟨S10000x128, .f32⟩
  | 71 => ⟨S650000x1, .f32⟩
  | 72 => ⟨S_, .i32⟩
  | 73 => ⟨S650000, .i32⟩
  | 74 => ⟨S650000, .i1⟩
  | 75 => ⟨S_, .i32⟩
  | 76 => ⟨S650000, .i32⟩
  | 77 => ⟨S650000, .i32⟩
  | 78 => ⟨S650000, .i32⟩
  | 79 => ⟨S650000x1, .i32⟩
  | 80 => ⟨S650000x128, .f32⟩
  | 81 => ⟨S650000x128, .f32⟩
  | 82 => ⟨S650000x128, .f32⟩
  | 83 => ⟨S_, .f32⟩
  | 84 => ⟨S10000x128, .f32⟩
  | 85 => ⟨S650000x1, .i32⟩
  | 86 => ⟨S10000x128, .f32⟩
  | 87 => ⟨S1x128, .f32⟩
  | 88 => ⟨S10000x128, .f32⟩
  | 89 => ⟨S10000x128, .f32⟩
  | 90 => ⟨S_, .f32⟩
  | 91 => ⟨S10000x128, .f32⟩
  | 92 => ⟨S10000x128, .f32⟩
  | 93 => ⟨S10000x128, .f32⟩
  | 94 => ⟨S650000x1, .f32⟩
  | 95 => ⟨S_, .i32⟩
  | 96 => ⟨S650000, .i32⟩
  | 97 => ⟨S650000, .i1⟩
  | 98 => ⟨S_, .i32⟩
  | 99 => ⟨S650000, .i32⟩
  | 100 => ⟨S650000, .i32⟩
  | 101 => ⟨S650000, .i32⟩
  | 102 => ⟨S650000x1, .i32⟩
  | 103 => ⟨S650000x128, .f32⟩
  | 104 => ⟨S650000x128, .f32⟩
  | 105 => ⟨S650000x128, .f32⟩
  | 106 => ⟨S_, .f32⟩
  | 107 => ⟨S10000x128, .f32⟩
  | 108 => ⟨S650000x1, .i32⟩
  | 109 => ⟨S10000x128, .f32⟩
  | 110 => ⟨S1x128, .f32⟩
  | 111 => ⟨S10000x128, .f32⟩
  | 112 => ⟨S10000x128, .f32⟩
  | 113 => ⟨S_, .f32⟩
  | 114 => ⟨S64x128, .f32⟩
  | 115 => ⟨S10000x1, .i32⟩
  | 116 => ⟨S64x128, .f32⟩
  | 117 => ⟨S_, .f32⟩
  | 118 => ⟨S10000, .f32⟩
  | 119 => ⟨S_, .f32⟩
  | 120 => ⟨S64, .f32⟩
  | 121 => ⟨S10000x1, .i32⟩
  | 122 => ⟨S64, .f32⟩
  | 123 => ⟨S_, .f32⟩
  | 124 => ⟨S64, .f32⟩
  | 125 => ⟨S64, .f32⟩
  | 126 => ⟨S64x1, .f32⟩
  | 127 => ⟨S64x128, .f32⟩
  | _ => ⟨S10000x128, .f32⟩

abbrev hbmTy0_1 (i : Nat) : BufTy := match i % 128 with
  | 0 => ⟨S64x128, .f32⟩
  | 1 => ⟨S64x1, .f32⟩
  | 2 => ⟨S1x1, .f32⟩
  | 3 => ⟨S64x1, .f32⟩
  | 4 => ⟨S64x1, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_8 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call1_cst : Ref sig .tc := ⟨.hbm, 90, rfl⟩
abbrev main_call1_v0 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_11 : Ref sig .tc := ⟨.hbm, 95, rfl⟩
abbrev main_v67 : Ref sig .tc := ⟨.hbm, 96, rfl⟩
abbrev main_v68 : Ref sig .tc := ⟨.hbm, 97, rfl⟩
abbrev main_c_12 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_13 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_14 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_15 : Ref sig .tc := ⟨.hbm, 117, rfl⟩
abbrev main_v85 : Ref sig .tc := ⟨.hbm, 118, rfl⟩
abbrev main_cst_16 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_17 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S10000_S650000_d0 : Shape.Concatenates [S640000, S10000] S650000 0
  slices_S2x640000_S1x640000_1_0 : S2x640000.Slices ![1, 0] S1x640000
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S64x128 : S_.BroadcastsInDim S64x128 (![] : Fin 0 → Fin S64x128.rank)
  bcast_S10000_S10000x1_0 : S10000.BroadcastsInDim S10000x1 (![0] : Fin 1 → Fin S10000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  dot_S10000x128_S128x128_S10000x128_1_0_0_1_n_n_wf : DotDims.WF S10000x128 S128x128 S10000x128 [1] [0] [0] [1] [] []
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1
  scatter_S64x128_S10000x1_S10000x128_1_0_0_1_wf : ScatterDims.WF S64x128 S10000x1 S10000x128 [1] [0] [0] 1
  scatter_S64_S10000x1_S10000_n_0_0_1_wf : ScatterDims.WF S64 S10000x1 S10000 [] [0] [0] 1
  dot_S64x128_S128x1_S64x1_1_0_0_1_n_n_wf : DotDims.WF S64x128 S128x1 S64x1 [1] [0] [0] [1] [] []

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf
def scatter_S64x128_S10000x1_S10000x128_1_0_0_1 : ScatterDims S64x128 S10000x1 S10000x128 where
  updateWindowDims := [1]
  insertedWindowDims := [0]
  scatterDimsToOperandDims := [0]
  indexVectorDim := 1
  wf := scatter_S64x128_S10000x1_S10000x128_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.KernelRun.lean ====
/-
  The idealized kernel program's run with its result named.

  @main is five kernel regions among six stretches of host operations.  The generated frame module folds the
  buffer contents through them: `W0` at launch, `W1` after the first stretch, `W2` after the first region (its
  output array at what the region's write-backs leave, everything else untouched), … , `W10` after the last
  region.  Run over the same segments, every weakly fair execution terminates with EVERY unscoped buffer at
  `W10`; here that is read at the result buffer as well as at the eleven arguments, so the result array after
  the run is `W10` at the result buffer — the quantity the value modules evaluate.
-/
import proofs.«113849_j22565758173966_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, the result buffer at the last boundary's contents and the
    arguments as launched. -/
theorem run : θ_run defs (onTc (τ := τ) (main (F := F))) ⟨m, fun _ => 0, ρ⟩ (fun r => ∀ c : Dev nD,
      r.2.mem ((c.tc : Thread nD τ).loc main_v85) = W10 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v85 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.Run

end
-- ==== Proof.KCarry.lean ====
/-
  Buffers that keep their contents across the kernel program's segments.

  The edge sources, edge targets and edge normalisation are computed by the first stretch of host operations and
  read again by the three later hops; each argument array is read wherever its layer needs it.  No stretch and
  no region in between writes them: a stretch leaves every buffer it does not name as a result, a region leaves
  every buffer that is not one of its windows' arrays.  Walking back segment by segment gives each at the boundary
  where it is read.
-/
import proofs.«113849_j22565758173966_1_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem at2_main_v3 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem at4_main_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem at6_main_v3 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem at2_main_v6 (c : Dev nD) : W2 m ρ c (Proc.devRef .tc main_v6) = W1 m ρ c (Proc.devRef .tc main_v6) :=
  calc W2 m ρ c (Proc.devRef .tc main_v6)
    _ = W1 m ρ c (Proc.devRef .tc main_v6) := W2_of_ne m ρ c main_v6 (by decide)

theorem at4_main_v6 (c : Dev nD) : W4 m ρ c (Proc.devRef .tc main_v6) = W1 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := W2_of_ne m ρ c main_v6 (by decide)

theorem at6_main_v6 (c : Dev nD) : W6 m ρ c (Proc.devRef .tc main_v6) = W1 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := W2_of_ne m ρ c main_v6 (by decide)

theorem at2_main_v28 (c : Dev nD) : W2 m ρ c (Proc.devRef .tc main_v28) = W1 m ρ c (Proc.devRef .tc main_v28) :=
  calc W2 m ρ c (Proc.devRef .tc main_v28)
    _ = W1 m ρ c (Proc.devRef .tc main_v28) := W2_of_ne m ρ c main_v28 (by decide)

theorem at4_main_v28 (c : Dev nD) : W4 m ρ c (Proc.devRef .tc main_v28) = W1 m ρ c (Proc.devRef .tc main_v28) :=
  calc W4 m ρ c (Proc.devRef .tc main_v28)
    _ = W3 m ρ c (Proc.devRef .tc main_v28) := W4_of_ne m ρ c main_v28 (by decide)
    _ = W2 m ρ c (Proc.devRef .tc main_v28) := StableHlo.after_of_forall_not_mem (b := Proc.devRef .tc main_v28) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v28) := W2_of_ne m ρ c main_v28 (by decide)

theorem at6_main_v28 (c : Dev nD) : W6 m ρ c (Proc.devRef .tc main_v28) = W1 m ρ c (Proc.devRef .tc main_v28) :=
  calc W6 m ρ c (Proc.devRef .tc main_v28)
    _ = W5 m ρ c (Proc.devRef .tc main_v28) := W6_of_ne m ρ c main_v28 (by decide)
    _ = W4 m ρ c (Proc.devRef .tc main_v28) := StableHlo.after_of_forall_not_mem (b := Proc.devRef .tc main_v28) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v28) := W4_of_ne m ρ c main_v28 (by decide)
    _ = W2 m ρ c (Proc.devRef .tc main_v28) := StableHlo.after_of_forall_not_mem (b := Proc.devRef .tc main_v28) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v28) := W2_of_ne m ρ c main_v28 (by decide)

theorem at1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem at1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem at2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem at3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem at4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem at5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem at6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem at8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem at8_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem at9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

end Cert.KernelIdeal.Carry

end
-- ==== Proof.Spec.lean ====
/-
  The dense steps of a three-layer graph convolution network with a pooled linear head, as functions over
  the extended reals, entry by entry.

  Notation: for an array `h` of M rows and 128 columns, a bias `β` over the 128 columns and a 128×128
  weight `w`,

      lin h w        [p, q] = Σ_k h[p, k] · w[k, q]
      affineLin h β w [p, q] = Σ_k (h[p, k] + β k) · w[k, q]
      clampLin h β w  [p, q] = Σ_k max(h[p, k] + β k, 0) · w[k, q]      (0 is the f32 zero word, kept as a word)
      addBias h β     [p, q] = h[p, q] + β q
      meanHead s n wp b [g, 0] = Σ_k (s[g, k] / max(n[g], 1)) · wp[k, 0] + b   (1 is the f32 word of 1.0)

  Each is generic in the number of rows, so that the same function describes a block of rows and the whole
  array; a row of the result only reads the same row of `h`.  Adding a zero bias changes nothing on the
  extended reals (x + 0 = x also at the two infinities), so `affineLin h 0 w = lin h w`.
-/
import Idealize.ShloMosaic.PureOps.Ideal.Laws
import Idealize.ShloMosaic.Lib.ValueIdx

noncomputable section

namespace Cert.Gnn

open Idealize.ShloMosaic Idealize.ShloMosaic.ValueIdx

/-- An M×N array of extended reals. -/
abbrev Mat (M N : Nat) : Type := (⟨2, ![M, N]⟩ : Shape).Idx → EReal

/-- The f32 word of +0.0 as an extended real (kept as a word: both programs clamp against this word). -/
abbrev zeroW : EReal := Ideal.ofBits .f32 0x00000000#32
/-- The f32 word of 1.0 as an extended real (kept as a word). -/
abbrev oneW : EReal := Ideal.ofBits .f32 0x3F800000#32

/-- The plain product: entry (p, q) is row p of `h` against column q of `w`. -/
def lin {M K N : Nat} (h : Mat M K) (w : Mat K N) : Mat M N :=
  fun i => ∑ k : Fin K, h (ix2 (i 0) k) * w (ix2 k (i 1))

/-- The product of the biased rows. -/
def affineLin {M K N : Nat} (h : Mat M K) (β : Fin K → EReal) (w : Mat K N) : Mat M N :=
  fun i => ∑ k : Fin K, (h (ix2 (i 0) k) + β k) * w (ix2 k (i 1))

/-- The product of the biased rows clamped below at zero. -/
def clampLin {M K N : Nat} (h : Mat M K) (β : Fin K → EReal) (w : Mat K N) : Mat M N :=
  fun i => ∑ k : Fin K, max (h (ix2 (i 0) k) + β k) zeroW * w (ix2 k (i 1))

/-- A bias added to every row. -/
def addBias {M N : Nat} (h : Mat M N) (β : Fin N → EReal) : Mat M N :=
  fun i => h (ix2 (i 0) (i 1)) + β (i 1)

/-- The pooled head: each graph's summed features divided by its node count clamped below at one, against the
    head's weight column, plus the head's bias. -/
def meanHead {G K N : Nat} (s : Mat G K) (n : Fin G → EReal) (wp : Mat K N) (b : Fin N → EReal) : Mat G N :=
  fun i => (∑ k : Fin K, Ideal.div (s (ix2 (i 0) k)) (max (n (i 0)) oneW) * wp (ix2 k (i 1))) + b (i 1)

/-- A zero bias changes nothing: x + 0 = x for every extended real. -/
theorem affineLin_zero {M K N : Nat} (h : Mat M K) (w : Mat K N) :
    affineLin h (fun _ => zeroW) w = lin h w := by
  funext i
  unfold affineLin lin
  refine Finset.sum_congr rfl fun k _ => ?_
  rw [show (zeroW : EReal) = 0 from Ideal.ofBits_zero_f32, add_zero]

end Cert.Gnn

end
-- ==== Proof.KStretch0.lean ====
/-
  The first stretch of host operations of the kernel program, read.

  From the edge list it builds the edges' sources and targets with the self-loops appended, the in-degree of
  every node, the normalisation 1/sqrt(max(degree, 1)) gathered at both ends of every edge and multiplied — and
  a row of zeros, the bias the first layer's kernel is launched with.  The operations are, one for one, the
  reference program's first operations, so the buffers hold the reference's own stage functions of the edge list.
-/
import proofs.«113849_j22565758173966_1_alg».proof.Proof.Gen.KernelIdeal.Frame
import proofs.«113849_j22565758173966_1_alg».proof.Proof.Gen.ReferenceIdeal.Read
import proofs.«113849_j22565758173966_1_alg».proof.Proof.Spec

set_option maxRecDepth 16384

noncomputable section

open Idealize.ShloMosaic Idealize.ShloMosaic.TcCoe Idealize.SL.Sem Idealize.ShloMosaic.StableHlo Idealize.ShloMosaic.ValueIdx

namespace Cert.KernelIdeal.Stretch0

open Cert.KernelIdeal Cert.KernelIdeal.Gen

variable (m : (ℓ : Loc nD τ sig) → Buf (Elt Ideal) ℓ) (ρ : Dev nD → PrngReg)

/-- The edges' sources, self-loops appended. -/
theorem src (c : Dev nD) : W1 m ρ c (Proc.devRef .tc main_v3)
    = Cert.ReferenceIdeal.Read.val_main_v3 (F := Ideal) (m ((c : Thread nD τ).loc main_arg1)) := by
  show StableHlo.after hostOps0 (W0 m ρ c) (Proc.devRef .tc main_v3) = _
  after_results_simp
  rfl

/-- The edges' targets, self-loops appended. -/
theorem dst (c : Dev nD) : W1 m ρ c (Proc.devRef .tc main_v6)
    = Cert.ReferenceIdeal.Read.val_main_v6 (F := Ideal) (m ((c : Thread nD τ).loc main_arg1)) := by
  show StableHlo.after hostOps0 (W0 m ρ c) (Proc.devRef .tc main_v6) = _
  after_results_simp
  rfl

/-- The edges' normalisation. -/
theorem norm (c : Dev nD) : W1 m ρ c (Proc.devRef .tc main_v28)
    = Cert.ReferenceIdeal.Read.val_main_v28 (F := Ideal) (m ((c : Thread nD τ).loc main_arg1)) := by
  show StableHlo.after hostOps0 (W0 m ρ c) (Proc.devRef .tc main_v28) = _
  after_results_simp
  rfl

/-- The first layer's bias row is zero at every column. -/
theorem zeroRow (c : Dev nD) (k : Fin 128) :
    (W1 m ρ c (Proc.devRef .tc main_v29) : S1x128.Idx → EReal) (ix2 (0 : Fin 1) k) = Cert.Gnn.zeroW := by
  have e : W1 m ρ c (Proc.devRef .tc main_v29)
      = broadcastInDim S1x128 ![] bcast_S_S1x128 (constant (F := Ideal) S_ .f32 0x00000000#32) := by
    show StableHlo.after hostOps0 (W0 m ρ c) (Proc.devRef .tc main_v29) = _
    after_results_simp
  rw [e]
  rfl

end Cert.KernelIdeal.Stretch0

end
-- ==== Proof.Glue.lean ====
/-
  The reference program's stages as the network's steps.

  Both programs run the same irregular glue around the dense steps: one HOP of message passing (gather the rows
  at the edges' sources, scale each by the edge's normalisation, scatter-add them at the edges' targets), the
  POOL of the node rows into their graphs, and the per-graph node COUNT.  They are named here once, as the
  reference's own host operations applied to a parameter, and never opened: the two programs apply them to
  equal arrays.

  The reference's dense steps are read entry by entry (the generated read-at-an-index lemmas) and are the
  functions of the specification: a host dot_general is `lin`; bias, clamp at zero and dot_general is
  `clampLin`; the last bias is `addBias`; divide by the clamped count, dot_general and bias is `meanHead`.
  Together: the reference's result is `net` of the eleven arguments.
-/
import proofs.«113849_j22565758173966_1_alg».proof.Proof.Gen.ReferenceIdeal.Read
import proofs.«113849_j22565758173966_1_alg».proof.Proof.Spec

set_option maxRecDepth 16384

noncomputable section

open Idealize.ShloMosaic Idealize.ShloMosaic.TcCoe Idealize.SL.Sem Idealize.ShloMosaic.ValueIdx

namespace Cert.Gnn.Glue

open Cert.ReferenceIdeal Cert.ReferenceIdeal.Read Cert.Gnn

/-- The edge list, as both programs receive it. -/
abbrev Edges : Type := (⟨S2x640000, .i32⟩ : BufTy).Contents (Elt Ideal)
/-- The node-to-graph assignment. -/
abbrev Batch : Type := (⟨S10000, .i32⟩ : BufTy).Contents (Elt Ideal)

/-- One hop of message passing over the edges with self-loops: the rows of `t` gathered at the sources, each scaled by
    its edge's normalisation, scatter-added at the targets into zeros. -/
def hop (x1 : Edges) (t : FVec Ideal S10000x128 .f32) : FVec Ideal S10000x128 .f32 :=
  Host.scatterAdd (F := Ideal) scatter_S10000x128_S650000x1_S650000x128_1_0_0_1 (val_main_v40 (F := Ideal)) (val_main_v41 (F := Ideal) x1)
    (mulf (val_main_v38 (F := Ideal) x1)
      (Host.gather gather_S10000x128_S650000x1_S650000x128_1_0_n_n_0_1_1128 t (val_main_v36 (F := Ideal) x1)))

/-- The node rows scatter-added into their graphs' rows. -/
def pool (x2 : Batch) (h : FVec Ideal S10000x128 .f32) : FVec Ideal S64x128 .f32 :=
  Host.scatterAdd (F := Ideal) scatter_S64x128_S10000x1_S10000x128_1_0_0_1 (val_main_v82 (F := Ideal)) (val_main_v83 (F := Ideal) x2) h

/-- The network: three hops around the dense steps, pooled, and the head. -/
def net (x0 : FVec Ideal S10000x128 .f32) (x1 : Edges) (x2 : Batch) (x3 : FVec Ideal S128x128 .f32) (x4 : FVec Ideal S128 .f32)
    (x5 : FVec Ideal S128x128 .f32) (x6 : FVec Ideal S128 .f32) (x7 : FVec Ideal S128x128 .f32) (x8 : FVec Ideal S128 .f32)
    (x9 : FVec Ideal S128x1 .f32) (x10 : FVec Ideal S1 .f32) : S64x1.Idx → EReal :=
  meanHead
    (pool x2 (addBias (hop x1 (clampLin (hop x1 (clampLin (hop x1 (lin x0 x3)) (fun k => x4 (ix1 k)) x5)) (fun k => x6 (ix1 k)) x7))
      (fun k => x8 (ix1 k))))
    (fun g => val_main_v88 (F := Ideal) x2 (ix1 g)) x9 (fun q => x10 (ix1 q))

theorem lidx_eq (p : Fin 10000) (q k : Fin 128) : lidx_main_v29 (ix2 p q) k = ix2 p k :=
  funext fun a => by match a with | ⟨0, _⟩ => rfl | ⟨1, _⟩ => rfl
theorem ridx_eq (p : Fin 10000) (q k : Fin 128) : ridx_main_v29 (ix2 p q) k = ix2 k q :=
  funext fun a => by match a with | ⟨0, _⟩ => rfl | ⟨1, _⟩ => rfl

/-- A host dot_general of an [10000,128] by a [128,128] array is the plain product. -/
theorem dot_eq_lin (y : FVec Ideal S10000x128 .f32) (w : FVec Ideal S128x128 .f32) :
    val_main_v29 (F := Ideal) y w = lin y w := by
  funext i
  obtain ⟨p, q, rfl⟩ : ∃ (p : Fin 10000) (q : Fin 128), i = ix2 p q := ⟨i 0, i 1, eq_ix2 i⟩
  rw [val_main_v29_apply]
  show _ = ∑ k : Fin 128, y (ix2 p k) * w (ix2 k q)
  refine Finset.sum_congr rfl fun k _ => ?_
  rw [lidx_eq, ridx_eq]

/-- The bias row spread over the rows, read at an entry. -/
theorem bias_apply (b : FVec Ideal S128 .f32) (p : Fin 10000) (q : Fin 128) :
    val_main_v44 (F := Ideal) b (ix2 p q) = b (ix1 q) := by
  rw [val_main_v44_apply, val_main_v43_apply]
  refine congrArg b ?_
  funext a
  match a with
  | ⟨0, _⟩ => rfl

/-- Bias, clamp at zero and dot_general: the clamped step. -/
theorem clamp_stage (a : FVec Ideal S10000x128 .f32) (b : FVec Ideal S128 .f32) (w : FVec Ideal S128x128 .f32) :
    val_main_v29 (F := Ideal) (maximumf (addf a (val_main_v44 (F := Ideal) b)) (val_main_call0_v0 (F := Ideal))) w
      = clampLin a (fun k => b (ix1 k)) w := by
  funext i
  obtain ⟨p, q, rfl⟩ : ∃ (p : Fin 10000) (q : Fin 128), i = ix2 p q := ⟨i 0, i 1, eq_ix2 i⟩
  rw [val_main_v29_apply]
  show _ = ∑ k : Fin 128, max (a (ix2 p k) + b (ix1 k)) zeroW * w (ix2 k q)
  refine Finset.sum_congr rfl fun k _ => ?_
  rw [lidx_eq, ridx_eq]
  show max (a (ix2 p k) + val_main_v44 (F := Ideal) b (ix2 p k)) (val_main_call0_v0 (F := Ideal) (ix2 p k)) * w (ix2 k q) = _
  rw [bias_apply b p k, val_main_call0_v0_apply]
  rfl

/-- The last layer's bias added. -/
theorem bias_stage (a : FVec Ideal S10000x128 .f32) (b : FVec Ideal S128 .f32) :
    addf a (val_main_v44 (F := Ideal) b) = addBias a (fun k => b (ix1 k)) := by
  funext i
  obtain ⟨p, q, rfl⟩ : ∃ (p : Fin 10000) (q : Fin 128), i = ix2 p q := ⟨i 0, i 1, eq_ix2 i⟩
  show a (ix2 p q) + val_main_v44 (F := Ideal) b (ix2 p q) = a (ix2 p q) + b (ix1 q)
  rw [bias_apply b p q]

/-! ## The reference's stages, one after the other -/

theorem v42_eq (x0 : FVec Ideal S10000x128 .f32) (x1 : Edges) (x3 : FVec Ideal S128x128 .f32) : val_main_v42 (F := Ideal) x0 x1 x3 = hop x1 (val_main_v29 (F := Ideal) x0 x3) := rfl

theorem v47_eq (x0 : FVec Ideal S10000x128 .f32) (x1 : Edges) (x3 : FVec Ideal S128x128 .f32) (x4 : FVec Ideal S128 .f32) (x5 : FVec Ideal S128x128 .f32) :
    val_main_v47 (F := Ideal) x0 x1 x3 x4 x5 = clampLin (val_main_v42 (F := Ideal) x0 x1 x3) (fun k => x4 (ix1 k)) x5 :=
  clamp_stage (val_main_v42 (F := Ideal) x0 x1 x3) x4 x5

theorem v60_eq (x0 : FVec Ideal S10000x128 .f32) (x1 : Edges) (x3 : FVec Ideal S128x128 .f32) (x4 : FVec Ideal S128 .f32) (x5 : FVec Ideal S128x128 .f32) : val_main_v60 (F := Ideal) x0 x1 x3 x4 x5 = hop x1 (val_main_v47 (F := Ideal) x0 x1 x3 x4 x5) := rfl

theorem v65_eq (x0 : FVec Ideal S10000x128 .f32) (x1 : Edges) (x3 : FVec Ideal S128x128 .f32) (x4 : FVec Ideal S128 .f32) (x5 : FVec Ideal S128x128 .f32) (x6 : FVec Ideal S128 .f32) (x7 : FVec Ideal S128x128 .f32) :
    val_main_v65 (F := Ideal) x0 x1 x3 x4 x5 x6 x7 = clampLin (val_main_v60 (F := Ideal) x0 x1 x3 x4 x5) (fun k => x6 (ix1 k)) x7 :=
  clamp_stage (val_main_v60 (F := Ideal) x0 x1 x3 x4 x5) x6 x7

theorem v78_eq (x0 : FVec Ideal S10000x128 .f32) (x1 : Edges) (x3 : FVec Ideal S128x128 .f32) (x4 : FVec Ideal S128 .f32) (x5 : FVec Ideal S128x128 .f32) (x6 : FVec Ideal S128 .f32) (x7 : FVec Ideal S128x128 .f32) : val_main_v78 (F := Ideal) x0 x1 x3 x4 x5 x6 x7 = hop x1 (val_main_v65 (F := Ideal) x0 x1 x3 x4 x5 x6 x7) := rfl

theorem v81_eq (x0 : FVec Ideal S10000x128 .f32) (x1 : Edges) (x3 : FVec Ideal S128x128 .f32) (x4 : FVec Ideal S128 .f32) (x5 : FVec Ideal S128x128 .f32) (x6 : FVec Ideal S128 .f32) (x7 : FVec Ideal S128x128 .f32) (x8 : FVec Ideal S128 .f32) :
    val_main_v81 (F := Ideal) x0 x1 x3 x4 x5 x6 x7 x8 = addBias (val_main_v78 (F := Ideal) x0 x1 x3 x4 x5 x6 x7) (fun k => x8 (ix1 k)) :=
  bias_stage (val_main_v78 (F := Ideal) x0 x1 x3 x4 x5 x6 x7) x8

theorem v84_eq (x0 : FVec Ideal S10000x128 .f32) (x1 : Edges) (x2 : Batch) (x3 : FVec Ideal S128x128 .f32) (x4 : FVec Ideal S128 .f32) (x5 : FVec Ideal S128x128 .f32) (x6 : FVec Ideal S128 .f32) (x7 : FVec Ideal S128x128 .f32) (x8 : FVec Ideal S128 .f32) : val_main_v84 (F := Ideal) x0 x1 x2 x3 x4 x5 x6 x7 x8 = pool x2 (val_main_v81 (F := Ideal) x0 x1 x3 x4 x5 x6 x7 x8) := rfl

/-- Divide by the clamped count, dot_general with the head's weight, add the head's bias: the pooled head. -/
theorem head_stage (x0 : FVec Ideal S10000x128 .f32) (x1 : Edges) (x2 : Batch) (x3 : FVec Ideal S128x128 .f32) (x4 : FVec Ideal S128 .f32) (x5 : FVec Ideal S128x128 .f32) (x6 : FVec Ideal S128 .f32) (x7 : FVec Ideal S128x128 .f32) (x8 : FVec Ideal S128 .f32) (x9 : FVec Ideal S128x1 .f32) (x10 : FVec Ideal S1 .f32) :
    val_main_v97 (F := Ideal) x0 x1 x2 x3 x4 x5 x6 x7 x8 x9 x10
      = meanHead (val_main_v84 (F := Ideal) x0 x1 x2 x3 x4 x5 x6 x7 x8) (fun g => val_main_v88 (F := Ideal) x2 (ix1 g)) x9 (fun q => x10 (ix1 q)) := by
  funext i
  obtain ⟨g, q, rfl⟩ : ∃ (g : Fin 64) (q : Fin 1), i = ix2 g q := ⟨i 0, i 1, eq_ix2 i⟩
  rw [val_main_v97_apply, val_main_v94_apply, val_main_v96_apply, val_main_v95_apply, Ideal.addf_def]
  show _ = (∑ k : Fin 128, Ideal.div (val_main_v84 (F := Ideal) x0 x1 x2 x3 x4 x5 x6 x7 x8 (ix2 g k)) (max (val_main_v88 (F := Ideal) x2 (ix1 g)) oneW) * x9 (ix2 k q)) + x10 (ix1 q)
  refine congrArg₂ (· + ·) (Finset.sum_congr rfl fun k _ => ?_) ?_
  · have el : lidx_main_v94 (ix2 g q) k = ix2 g k := funext fun a => by match a with | ⟨0, _⟩ => rfl | ⟨1, _⟩ => rfl
    have er : ridx_main_v94 (ix2 g q) k = ix2 k q := funext fun a => by match a with | ⟨0, _⟩ => rfl | ⟨1, _⟩ => rfl
    have ec : idx_main_v91 (idx_main_v92 (ix2 g k)) = ix1 g := funext fun a => by match a with | ⟨0, _⟩ => rfl
    rw [el, er, val_main_v93_apply, val_main_v92_apply, val_main_v91_apply, val_main_v90_apply, val_main_v89_apply, ec]
    rfl
  · refine congrArg x10 ?_
    funext a
    match a with
    | ⟨0, _⟩ => exact Fin.ext (by have := q.isLt; show 0 = q.val; omega)

/-- The reference's result is the network of its arguments. -/
theorem ref_eq_net (x0 : FVec Ideal S10000x128 .f32) (x1 : Edges) (x2 : Batch) (x3 : FVec Ideal S128x128 .f32) (x4 : FVec Ideal S128 .f32) (x5 : FVec Ideal S128x128 .f32) (x6 : FVec Ideal S128 .f32) (x7 : FVec Ideal S128x128 .f32) (x8 : FVec Ideal S128 .f32) (x9 : FVec Ideal S128x1 .f32) (x10 : FVec Ideal S1 .f32) :
    val_main_v97 (F := Ideal) x0 x1 x2 x3 x4 x5 x6 x7 x8 x9 x10 = net x0 x1 x2 x3 x4 x5 x6 x7 x8 x9 x10 := by
  rw [head_stage, v84_eq, v81_eq, v78_eq, v65_eq, v60_eq, v47_eq, v42_eq, dot_eq_lin]
  rfl

end Cert.Gnn.Glue

end
-- ==== Proof.KStretch1.lean ====
/-
  Stretch 1 of the kernel program's host operations, read: one hop of message passing over the layer's
  transformed features (gathered at the edges' sources, scaled by the normalisation, scatter-added at the targets)
  and the next bias as a [1, 128] row.  The edge data are the first stretch's, untouched since; the operations are
  the reference's, so the hop is the shared function `hop` of whatever the previous region left.
-/
import proofs.«113849_j22565758173966_1_alg».proof.Proof.Gen.KernelIdeal.Frame
import proofs.«113849_j22565758173966_1_alg».proof.Proof.KCarry
import proofs.«113849_j22565758173966_1_alg».proof.Proof.KStretch0
import proofs.«113849_j22565758173966_1_alg».proof.Proof.Glue
import Idealize.ShloMosaic.Lib.ValueLayout

set_option maxRecDepth 16384

noncomputable section

open Idealize.ShloMosaic Idealize.ShloMosaic.TcCoe Idealize.SL.Sem Idealize.ShloMosaic.StableHlo Idealize.ShloMosaic.ValueIdx

namespace Cert.KernelIdeal.Stretch1

open Cert.KernelIdeal Cert.KernelIdeal.Gen

variable (m : (ℓ : Loc nD τ sig) → Buf (Elt Ideal) ℓ) (ρ : Dev nD → PrngReg)

/-- The hop of the previous region's output. -/
theorem agg (c : Dev nD) (t : FVec Ideal Cert.ReferenceIdeal.S10000x128 .f32)
    (ht : W2 m ρ c (Proc.devRef .tc main_v30) = t) :
    W3 m ρ c (Proc.devRef .tc main_v43) = Cert.Gnn.Glue.hop (m ((c : Thread nD τ).loc main_arg1)) t := by
  show StableHlo.after hostOps1 (W2 m ρ c) (Proc.devRef .tc main_v43) = _
  after_results_simp
  rw [Carry.at2_main_v3 m ρ c, Carry.at2_main_v6 m ρ c, Carry.at2_main_v28 m ρ c,
    Stretch0.src m ρ c, Stretch0.dst m ρ c, Stretch0.norm m ρ c, ht]
  rfl

/-- The bias row at column k is the bias vector at k. -/
theorem biasRow (c : Dev nD) (k : Fin 128) :
    (W3 m ρ c (Proc.devRef .tc main_v44) : S1x128.Idx → EReal) (ix2 (0 : Fin 1) k)
      = (m ((c : Thread nD τ).loc main_arg4) : S128.Idx → EReal) (ix1 k) := by
  have e : W3 m ρ c (Proc.devRef .tc main_v44)
      = shapeCast S1x128 (m ((c : Thread nD τ).loc main_arg4) : S128.Idx → EReal) shapeCasts_S128_S1x128 := by
    show StableHlo.after hostOps1 (W2 m ρ c) (Proc.devRef .tc main_v44) = _
    after_results_simp
    rw [Carry.at2_main_arg4 m ρ c]
    rfl
  rw [e]
  exact shapeCast_a_1a_apply _ _ 0 k

end Cert.KernelIdeal.Stretch1

end
-- ==== Proof.KStretch2.lean ====
/-
  Stretch 2 of the kernel program's host operations, read: one hop of message passing over the layer's
  transformed features (gathered at the edges' sources, scaled by the normalisation, scatter-added at the targets)
  and the next bias as a [1, 128] row.  The edge data are the first stretch's, untouched since; the operations are
  the reference's, so the hop is the shared function `hop` of whatever the previous region left.
-/
import proofs.«113849_j22565758173966_1_alg».proof.Proof.Gen.KernelIdeal.Frame
import proofs.«113849_j22565758173966_1_alg».proof.Proof.KCarry
import proofs.«113849_j22565758173966_1_alg».proof.Proof.KStretch0
import proofs.«113849_j22565758173966_1_alg».proof.Proof.Glue
import Idealize.ShloMosaic.Lib.ValueLayout

set_option maxRecDepth 16384

noncomputable section

open Idealize.ShloMosaic Idealize.ShloMosaic.TcCoe Idealize.SL.Sem Idealize.ShloMosaic.StableHlo Idealize.ShloMosaic.ValueIdx

namespace Cert.KernelIdeal.Stretch2

open Cert.KernelIdeal Cert.KernelIdeal.Gen

variable (m : (ℓ : Loc nD τ sig) → Buf (Elt Ideal) ℓ) (ρ : Dev nD → PrngReg)

/-- The hop of the previous region's output. -/
theorem agg (c : Dev nD) (t : FVec Ideal Cert.ReferenceIdeal.S10000x128 .f32)
    (ht : W4 m ρ c (Proc.devRef .tc main_v45) = t) :
    W5 m ρ c (Proc.devRef .tc main_v58) = Cert.Gnn.Glue.hop (m ((c : Thread nD τ).loc main_arg1)) t := by
  show StableHlo.after hostOps2 (W4 m ρ c) (Proc.devRef .tc main_v58) = _
  after_results_simp
  rw [Carry.at4_main_v3 m ρ c, Carry.at4_main_v6 m ρ c, Carry.at4_main_v28 m ρ c,
    Stretch0.src m ρ c, Stretch0.dst m ρ c, Stretch0.norm m ρ c, ht]
  rfl

/-- The bias row at column k is the bias vector at k. -/
theorem biasRow (c : Dev nD) (k : Fin 128) :
    (W5 m ρ c (Proc.devRef .tc main_v59) : S1x128.Idx → EReal) (ix2 (0 : Fin 1) k)
      = (m ((c : Thread nD τ).loc main_arg6) : S128.Idx → EReal) (ix1 k) := by
  have e : W5 m ρ c (Proc.devRef .tc main_v59)
      = shapeCast S1x128 (m ((c : Thread nD τ).loc main_arg6) : S128.Idx → EReal) shapeCasts_S128_S1x128 := by
    show StableHlo.after hostOps2 (W4 m ρ c) (Proc.devRef .tc main_v59) = _
    after_results_simp
    rw [Carry.at4_main_arg6 m ρ c]
    rfl
  rw [e]
  exact shapeCast_a_1a_apply _ _ 0 k

end Cert.KernelIdeal.Stretch2

end
-- ==== Proof.KStretch3.lean ====
/-
  Stretch 3 of the kernel program's host operations, read: one hop of message passing over the layer's
  transformed features (gathered at the edges' sources, scaled by the normalisation, scatter-added at the targets)
  and the next bias as a [1, 128] row.  The edge data are the first stretch's, untouched since; the operations are
  the reference's, so the hop is the shared function `hop` of whatever the previous region left.
-/
import proofs.«113849_j22565758173966_1_alg».proof.Proof.Gen.KernelIdeal.Frame
import proofs.«113849_j22565758173966_1_alg».proof.Proof.KCarry
import proofs.«113849_j22565758173966_1_alg».proof.Proof.KStretch0
import proofs.«113849_j22565758173966_1_alg».proof.Proof.Glue
import Idealize.ShloMosaic.Lib.ValueLayout

set_option maxRecDepth 16384

noncomputable section

open Idealize.ShloMosaic Idealize.ShloMosaic.TcCoe Idealize.SL.Sem Idealize.ShloMosaic.StableHlo Idealize.ShloMosaic.ValueIdx

namespace Cert.KernelIdeal.Stretch3

open Cert.KernelIdeal Cert.KernelIdeal.Gen

variable (m : (ℓ : Loc nD τ sig) → Buf (Elt Ideal) ℓ) (ρ : Dev nD → PrngReg)

/-- The hop of the previous region's output. -/
theorem agg (c : Dev nD) (t : FVec Ideal Cert.ReferenceIdeal.S10000x128 .f32)
    (ht : W6 m ρ c (Proc.devRef .tc main_v60) = t) :
    W7 m ρ c (Proc.devRef .tc main_v73) = Cert.Gnn.Glue.hop (m ((c : Thread nD τ).loc main_arg1)) t := by
  show StableHlo.after hostOps3 (W6 m ρ c) (Proc.devRef .tc main_v73) = _
  after_results_simp
  rw [Carry.at6_main_v3 m ρ c, Carry.at6_main_v6 m ρ c, Carry.at6_main_v28 m ρ c,
    Stretch0.src m ρ c, Stretch0.dst m ρ c, Stretch0.norm m ρ c, ht]
  rfl

/-- The bias row at column k is the bias vector at k. -/
theorem biasRow (c : Dev nD) (k : Fin 128) :
    (W7 m ρ c (Proc.devRef .tc main_v74) : S1x128.Idx → EReal) (ix2 (0 : Fin 1) k)
      = (m ((c : Thread nD τ).loc main_arg8) : S128.Idx → EReal) (ix1 k) := by
  have e : W7 m ρ c (Proc.devRef .tc main_v74)
      = shapeCast S1x128 (m ((c : Thread nD τ).loc main_arg8) : S128.Idx → EReal) shapeCasts_S128_S1x128 := by
    show StableHlo.after hostOps3 (W6 m ρ c) (Proc.devRef .tc main_v74) = _
    after_results_simp
    rw [Carry.at6_main_arg8 m ρ c]
    rfl
  rw [e]
  exact shapeCast_a_1a_apply _ _ 0 k

end Cert.KernelIdeal.Stretch3

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.KStretch4.lean ====
/-
  The last stretch of the kernel program's host operations, read: the node rows pooled into their graphs
  (scatter-add at the graph ids into zeros), the number of nodes of every graph (ones scatter-added at the graph
  ids) kept as a [64, 1] column, and the head's bias as a [1, 1] array.  The operations are the reference's, so
  the pooled rows are the shared function `pool` of what the previous region left and the counts are the
  reference's own count stage.
-/
import proofs.«113849_j22565758173966_1_alg».proof.Proof.Gen.KernelIdeal.Frame
import proofs.«113849_j22565758173966_1_alg».proof.Proof.KCarry
import proofs.«113849_j22565758173966_1_alg».proof.Proof.Glue
import proofs.«113849_j22565758173966_1_alg».proof.Proof.LibKeepdimsColumn
import Idealize.ShloMosaic.Lib.ValueLayout

set_option maxRecDepth 16384

noncomputable section

open Idealize.ShloMosaic Idealize.ShloMosaic.TcCoe Idealize.SL.Sem Idealize.ShloMosaic.StableHlo Idealize.ShloMosaic.ValueIdx

namespace Cert.KernelIdeal.Stretch4

open Cert.KernelIdeal Cert.KernelIdeal.Gen

variable (m : (ℓ : Loc nD τ sig) → Buf (Elt Ideal) ℓ) (ρ : Dev nD → PrngReg)

/-- The pooled rows of the previous region's output. -/
theorem sums (c : Dev nD) (t : FVec Ideal Cert.ReferenceIdeal.S10000x128 .f32)
    (ht : W8 m ρ c (Proc.devRef .tc main_v75) = t) :
    W9 m ρ c (Proc.devRef .tc main_v78) = Cert.Gnn.Glue.pool (m ((c : Thread nD τ).loc main_arg2)) t := by
  show StableHlo.after hostOps4 (W8 m ρ c) (Proc.devRef .tc main_v78) = _
  after_results
  rw [Carry.at8_main_arg2 m ρ c, ht]
  rfl

/-- The count column at row g is the reference's count of graph g. -/
theorem countCol (c : Dev nD) (g : Fin 64) :
    (W9 m ρ c (Proc.devRef .tc main_v83) : S64x1.Idx → EReal) (ix2 g (0 : Fin 1))
      = Cert.ReferenceIdeal.Read.val_main_v88 (F := Ideal) (m ((c : Thread nD τ).loc main_arg2)) (ix1 g) := by
  have e : W9 m ρ c (Proc.devRef .tc main_v83)
      = shapeCast S64x1 (Cert.ReferenceIdeal.Read.val_main_v88 (F := Ideal) (m ((c : Thread nD τ).loc main_arg2)) : S64.Idx → EReal)
          shapeCasts_S64_S64x1 := by
    show StableHlo.after hostOps4 (W8 m ρ c) (Proc.devRef .tc main_v83) = _
    after_results
    rw [Carry.at8_main_arg2 m ρ c]
    rfl
  rw [e]
  exact Cert.KeepdimsColumn.shapeCast_a_a1_apply _ _ g 0

/-- The head's bias as a [1, 1] array is the bias vector's one entry. -/
theorem headBias (c : Dev nD) (q : Fin 1) :
    (W9 m ρ c (Proc.devRef .tc main_v84) : S1x1.Idx → EReal) (ix2 (0 : Fin 1) q)
      = (m ((c : Thread nD τ).loc main_arg10) : S1.Idx → EReal) (ix1 q) := by
  have e : W9 m ρ c (Proc.devRef .tc main_v84)
      = shapeCast S1x1 (m ((c : Thread nD τ).loc main_arg10) : S1.Idx → EReal) shapeCasts_S1_S1x1 := by
    show StableHlo.after hostOps4 (W8 m ρ c) (Proc.devRef .tc main_v84) = _
    after_results
    rw [Carry.at8_main_arg10 m ρ c]
    rfl
  rw [e]
  exact shapeCast_a_1a_apply _ _ 0 q

end Cert.KernelIdeal.Stretch4

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.Region0.lean ====
/-
  Region 0 of the kernel program: (h + b) · W on row blocks.

  The pallas_call walks the 10000 rows in five blocks of 2000.  At a grid point t its body loads rows
  2000·t … 2000·t + 1999 of the feature array, the whole [1, 128] bias row and the whole 128×128 weight,
  and stores the block's product.  Entry (p, q) of the block only reads row p of the block, so each block is
  the matching block of rows of ONE whole-array function of the three arrays (Cert.Gnn.affineLin), and the five
  blocks tile the output array: after the region the output array is that function of the arrays the region
  found on entry.  Stated for any entry contents `V`.
-/
import proofs.«113849_j22565758173966_1_alg».proof.Proof.Gen.KernelIdeal.Frame
import proofs.«113849_j22565758173966_1_alg».proof.Proof.Spec
import proofs.«113849_j22565758173966_1_alg».proof.Proof.LibMatmulNN
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of a block: row p of the loaded block, biased, against
    column q of the weight (the change of float format before the matrix unit is the identity here). -/
theorem pay_apply (v0 : Vec Ideal S2000x128 .f32) (v1 : Vec Ideal S1x128 .f32) (v2 : Vec Ideal S128x128 .f32)
    (p : Fin 2000) (q : Fin 128) :
    k0_pay1 v0 v1 v2 (ix2 p q)
      = ∑ k : Fin 128, (v0 (ix2 p k) + v1 (ix2 (0 : Fin 1) k)) * v2 (ix2 k q) := by
  unfold k0_pay1
  refine (Cert.MatmulNN.matmul_zero_apply _ rfl none _ _ p q).trans ?_
  refine Finset.sum_congr rfl fun k _ => ?_
  simp only [truncf_apply, addf_apply, shapeCast_self, broadcastTo_1b_ab_apply]

/-- The printed index maps over the five grid points: the feature and output windows move together down the rows, the
    bias and weight windows stay. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 4 ∧ win0_3.index t (1 : Fin 2) = 0 :=
  (by decide +kernel : ∀ t : Fin grid0.N, _)

/-- Every one of the five row blocks is some grid point's. -/
theorem idx_onto : ∀ q0 : Fin 5, ∃ t : Fin cfg0.N, win0_3.index t = ![q0.val, 0] :=
  (by decide +kernel : ∀ q0 : Fin 5, ∃ t : Fin grid0.N, win0_3.index t = ![q0.val, 0])

/-- Row x of the feature block at point t is row (block index)·2000 + x of the feature array. -/
theorem iblk_feat (c : Dev nD) (t : Fin cfg0.N) (x : S2000x128.Idx) (i : S10000x128.Idx)
    (h0 : (i 0).val = win0_3.index t (0 : Fin 2) * 2000 + (x 0).val) (h1 : (i 1).val = (x 1).val) :
    (iblk0 V c 0 t : Vec Ideal S2000x128 .f32) x = (V c (Pipeline.arrRef spec0 0) : S10000x128.Idx → EReal) i := by
  obtain ⟨e0, e1, -⟩ := idx_facts t
  unfold iblk0
  rw [View.read_apply]
  refine congrArg (V c (Pipeline.arrRef spec0 0) : S10000x128.Idx → EReal) ?_
  funext a
  apply Fin.ext
  match a with
  | ⟨0, _⟩ => show win0_0.index t (0 : Fin 2) * 2000 + 1 * (x 0).val = (i 0).val; rw [e0, h0]; omega
  | ⟨1, _⟩ => show win0_0.index t (1 : Fin 2) * 128 + 1 * (x 1).val = (i 1).val; rw [e1, h1]; omega

/-- The bias block is the whole bias row. -/
theorem iblk_bias (c : Dev nD) (t : Fin cfg0.N) (x : S1x128.Idx) :
    (iblk0 V c 1 t : Vec Ideal S1x128 .f32) x = (V c (Pipeline.arrRef spec0 1) : S1x128.Idx → EReal) x := by
  obtain ⟨-, -, e0, e1, -⟩ := idx_facts t
  unfold iblk0
  rw [View.read_apply]
  refine congrArg (V c (Pipeline.arrRef spec0 1) : S1x128.Idx → EReal) ?_
  funext a
  apply Fin.ext
  match a with
  | ⟨0, _⟩ => show win0_1.index t (0 : Fin 2) * 1 + 1 * (x 0).val = (x 0).val; rw [e0]; omega
  | ⟨1, _⟩ => show win0_1.index t (1 : Fin 2) * 128 + 1 * (x 1).val = (x 1).val; rw [e1]; omega

/-- The weight block is the whole weight. -/
theorem iblk_weight (c : Dev nD) (t : Fin cfg0.N) (x : S128x128.Idx) :
    (iblk0 V c 2 t : Vec Ideal S128x128 .f32) x = (V c (Pipeline.arrRef spec0 2) : S128x128.Idx → EReal) x := by
  obtain ⟨-, -, -, -, e0, e1, -⟩ := idx_facts t
  unfold iblk0
  rw [View.read_apply]
  refine congrArg (V c (Pipeline.arrRef spec0 2) : S128x128.Idx → EReal) ?_
  funext a
  apply Fin.ext
  match a with
  | ⟨0, _⟩ => show win0_2.index t (0 : Fin 2) * 128 + 1 * (x 0).val = (x 0).val; rw [e0]; omega
  | ⟨1, _⟩ => show win0_2.index t (1 : Fin 2) * 128 + 1 * (x 1).val = (x 1).val; rw [e1]; omega

/-- The whole-array function the region computes, of the arrays it finds on entry. -/
abbrev G (c : Dev nD) : S10000x128.Idx → EReal :=
  Cert.Gnn.affineLin (V c (Pipeline.arrRef spec0 0) : S10000x128.Idx → EReal)
    (fun k => (V c (Pipeline.arrRef spec0 1) : S1x128.Idx → EReal) (ix2 (0 : Fin 1) k))
    (V c (Pipeline.arrRef spec0 2) : S128x128.Idx → EReal)

/-- What grid point t writes back is block t of `G`. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S2000x128) hz, View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  obtain ⟨-, -, -, -, -, -, -, e31⟩ := idx_facts t
  show k0_pay1 (iblk0 V c 0 t) (iblk0 V c 1 t) (iblk0 V c 2 t) (ix2 p q)
    = G V c (((cfg0.win 3).blk t).view.emb (ix2 p q))
  refine (pay_apply (iblk0 V c 0 t) (iblk0 V c 1 t) (iblk0 V c 2 t) p q).trans ?_
  unfold G Cert.Gnn.affineLin
  refine Finset.sum_congr rfl fun k _ => ?_
  rw [iblk_feat V c t (ix2 p k) (ix2 (((cfg0.win 3).blk t).view.emb (ix2 p q) 0) k)
        (by show win0_3.index t (0 : Fin 2) * 2000 + 1 * p.val = win0_3.index t (0 : Fin 2) * 2000 + p.val; omega) rfl,
    iblk_bias V c t (ix2 (0 : Fin 1) k),
    iblk_weight V c t (ix2 k q)]
  refine congrArg (fun z => _ * (V c (Pipeline.arrRef spec0 2) : S128x128.Idx → EReal) z) ?_
  funext a
  apply Fin.ext
  match a with
  | ⟨0, _⟩ => rfl
  | ⟨1, _⟩ => show q.val = win0_3.index t (1 : Fin 2) * 128 + 1 * q.val; rw [e31]; omega

/-- An index of the array is in point t's block iff each coordinate is in the block's range on its axis. -/
theorem mem_blk (t : Fin cfg0.N) (i : S10000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole (Pipeline.arrRef spec0 3)).slice (win0_3.rect t)).set ↔ _
  rw [View.set_slice_whole, Rect.mem_set_unit]
  exact Iff.rfl

/-- The five blocks tile the output array. -/
theorem cover (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- After the region the output array holds `G` of the entry arrays. -/
theorem final (c : Dev nD) : (dat0 V c).arrAt 3 cfg0.N = G V c :=
  (dat0 V c).arrAt_eq_of_cover 3 (G V c) (fun t _ => flushed_eq V c t) cover

end Cert.KernelIdeal.Region0

end
-- ==== Proof.Region1.lean ====
/-
  Region 1 of the kernel program: relu(h + b) · W on row blocks.

  The pallas_call walks the 10000 rows in five blocks of 2000.  At a grid point t its body loads rows
  2000·t … 2000·t + 1999 of the feature array, the whole [1, 128] bias row and the whole 128×128 weight,
  and stores the block's product.  Entry (p, q) of the block only reads row p of the block, so each block is
  the matching block of rows of ONE whole-array function of the three arrays (Cert.Gnn.clampLin), and the five
  blocks tile the output array: after the region the output array is that function of the arrays the region
  found on entry.  Stated for any entry contents `V`.
-/
import proofs.«113849_j22565758173966_1_alg».proof.Proof.Gen.KernelIdeal.Frame
import proofs.«113849_j22565758173966_1_alg».proof.Proof.Spec
import proofs.«113849_j22565758173966_1_alg».proof.Proof.LibMatmulNN
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of a block: row p of the loaded block, biased, clamped at zero, against
    column q of the weight (the change of float format before the matrix unit is the identity here). -/
theorem pay_apply (v0 : Vec Ideal S2000x128 .f32) (v1 : Vec Ideal S1x128 .f32) (v2 : Vec Ideal S128x128 .f32)
    (p : Fin 2000) (q : Fin 128) :
    k1_pay1 v0 v1 v2 (ix2 p q)
      = ∑ k : Fin 128, max (v0 (ix2 p k) + v1 (ix2 (0 : Fin 1) k)) Cert.Gnn.zeroW * v2 (ix2 k q) := by
  unfold k1_pay1
  refine (Cert.MatmulNN.matmul_zero_apply _ rfl none _ _ p q).trans ?_
  refine Finset.sum_congr rfl fun k _ => ?_
  simp only [truncf_apply, maximumf_apply, addf_apply, broadcast_apply, shapeCast_self, broadcastTo_1b_ab_apply]
  rfl

/-- The printed index maps over the five grid points: the feature and output windows move together down the rows, the
    bias and weight windows stay. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 4 ∧ win1_3.index t (1 : Fin 2) = 0 :=
  (by decide +kernel : ∀ t : Fin grid1.N, _)

/-- Every one of the five row blocks is some grid point's. -/
theorem idx_onto : ∀ q0 : Fin 5, ∃ t : Fin cfg1.N, win1_3.index t = ![q0.val, 0] :=
  (by decide +kernel : ∀ q0 : Fin 5, ∃ t : Fin grid1.N, win1_3.index t = ![q0.val, 0])

/-- Row x of the feature block at point t is row (block index)·2000 + x of the feature array. -/
theorem iblk_feat (c : Dev nD) (t : Fin cfg1.N) (x : S2000x128.Idx) (i : S10000x128.Idx)
    (h0 : (i 0).val = win1_3.index t (0 : Fin 2) * 2000 + (x 0).val) (h1 : (i 1).val = (x 1).val) :
    (iblk1 V c 0 t : Vec Ideal S2000x128 .f32) x = (V c (Pipeline.arrRef spec1 0) : S10000x128.Idx → EReal) i := by
  obtain ⟨e0, e1, -⟩ := idx_facts t
  unfold iblk1
  rw [View.read_apply]
  refine congrArg (V c (Pipeline.arrRef spec1 0) : S10000x128.Idx → EReal) ?_
  funext a
  apply Fin.ext
  match a with
  | ⟨0, _⟩ => show win1_0.index t (0 : Fin 2) * 2000 + 1 * (x 0).val = (i 0).val; rw [e0, h0]; omega
  | ⟨1, _⟩ => show win1_0.index t (1 : Fin 2) * 128 + 1 * (x 1).val = (i 1).val; rw [e1, h1]; omega

/-- The bias block is the whole bias row. -/
theorem iblk_bias (c : Dev nD) (t : Fin cfg1.N) (x : S1x128.Idx) :
    (iblk1 V c 1 t : Vec Ideal S1x128 .f32) x = (V c (Pipeline.arrRef spec1 1) : S1x128.Idx → EReal) x := by
  obtain ⟨-, -, e0, e1, -⟩ := idx_facts t
  unfold iblk1
  rw [View.read_apply]
  refine congrArg (V c (Pipeline.arrRef spec1 1) : S1x128.Idx → EReal) ?_
  funext a
  apply Fin.ext
  match a with
  | ⟨0, _⟩ => show win1_1.index t (0 : Fin 2) * 1 + 1 * (x 0).val = (x 0).val; rw [e0]; omega
  | ⟨1, _⟩ => show win1_1.index t (1 : Fin 2) * 128 + 1 * (x 1).val = (x 1).val; rw [e1]; omega

/-- The weight block is the whole weight. -/
theorem iblk_weight (c : Dev nD) (t : Fin cfg1.N) (x : S128x128.Idx) :
    (iblk1 V c 2 t : Vec Ideal S128x128 .f32) x = (V c (Pipeline.arrRef spec1 2) : S128x128.Idx → EReal) x := by
  obtain ⟨-, -, -, -, e0, e1, -⟩ := idx_facts t
  unfold iblk1
  rw [View.read_apply]
  refine congrArg (V c (Pipeline.arrRef spec1 2) : S128x128.Idx → EReal) ?_
  funext a
  apply Fin.ext
  match a with
  | ⟨0, _⟩ => show win1_2.index t (0 : Fin 2) * 128 + 1 * (x 0).val = (x 0).val; rw [e0]; omega
  | ⟨1, _⟩ => show win1_2.index t (1 : Fin 2) * 128 + 1 * (x 1).val = (x 1).val; rw [e1]; omega

/-- The whole-array function the region computes, of the arrays it finds on entry. -/
abbrev G (c : Dev nD) : S10000x128.Idx → EReal :=
  Cert.Gnn.clampLin (V c (Pipeline.arrRef spec1 0) : S10000x128.Idx → EReal)
    (fun k => (V c (Pipeline.arrRef spec1 1) : S1x128.Idx → EReal) (ix2 (0 : Fin 1) k))
    (V c (Pipeline.arrRef spec1 2) : S128x128.Idx → EReal)

/-- What grid point t writes back is block t of `G`. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S2000x128) hz, View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  obtain ⟨-, -, -, -, -, -, -, e31⟩ := idx_facts t
  show k1_pay1 (iblk1 V c 0 t) (iblk1 V c 1 t) (iblk1 V c 2 t) (ix2 p q)
    = G V c (((cfg1.win 3).blk t).view.emb (ix2 p q))
  refine (pay_apply (iblk1 V c 0 t) (iblk1 V c 1 t) (iblk1 V c 2 t) p q).trans ?_
  unfold G Cert.Gnn.clampLin
  refine Finset.sum_congr rfl fun k _ => ?_
  rw [iblk_feat V c t (ix2 p k) (ix2 (((cfg1.win 3).blk t).view.emb (ix2 p q) 0) k)
        (by show win1_3.index t (0 : Fin 2) * 2000 + 1 * p.val = win1_3.index t (0 : Fin 2) * 2000 + p.val; omega) rfl,
    iblk_bias V c t (ix2 (0 : Fin 1) k),
    iblk_weight V c t (ix2 k q)]
  refine congrArg (fun z => _ * (V c (Pipeline.arrRef spec1 2) : S128x128.Idx → EReal) z) ?_
  funext a
  apply Fin.ext
  match a with
  | ⟨0, _⟩ => rfl
  | ⟨1, _⟩ => show q.val = win1_3.index t (1 : Fin 2) * 128 + 1 * q.val; rw [e31]; omega

/-- An index of the array is in point t's block iff each coordinate is in the block's range on its axis. -/
theorem mem_blk (t : Fin cfg1.N) (i : S10000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole (Pipeline.arrRef spec1 3)).slice (win1_3.rect t)).set ↔ _
  rw [View.set_slice_whole, Rect.mem_set_unit]
  exact Iff.rfl

/-- The five blocks tile the output array. -/
theorem cover (i : S10000x128.Idx) :
    ∃ t : Fin cfg1.N, (cfg1.win 3).flush t = true ∧ i ∈ ((cfg1.win 3).blk t).view.set := by
  have hi0 : (i 0).val < 10000 := (i 0).isLt
  have hi1 : (i 1).val < 128 := (i 1).isLt
  obtain ⟨t, ht⟩ := idx_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- After the region the output array holds `G` of the entry arrays. -/
theorem final (c : Dev nD) : (dat1 V c).arrAt 3 cfg1.N = G V c :=
  (dat1 V c).arrAt_eq_of_cover 3 (G V c) (fun t _ => flushed_eq V c t) cover

end Cert.KernelIdeal.Region1

end
-- ==== Proof.Region2.lean ====
/-
  Region 2 of the kernel program: relu(h + b) · W on row blocks.

  The pallas_call walks the 10000 rows in five blocks of 2000.  At a grid point t its body loads rows
  2000·t … 2000·t + 1999 of the feature array, the whole [1, 128] bias row and the whole 128×128 weight,
  and stores the block's product.  Entry (p, q) of the block only reads row p of the block, so each block is
  the matching block of rows of ONE whole-array function of the three arrays (Cert.Gnn.clampLin), and the five
  blocks tile the output array: after the region the output array is that function of the arrays the region
  found on entry.  Stated for any entry contents `V`.
-/
import proofs.«113849_j22565758173966_1_alg».proof.Proof.Gen.KernelIdeal.Frame
import proofs.«113849_j22565758173966_1_alg».proof.Proof.Spec
import proofs.«113849_j22565758173966_1_alg».proof.Proof.LibMatmulNN
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of a block: row p of the loaded block, biased, clamped at zero, against
    column q of the weight (the change of float format before the matrix unit is the identity here). -/
theorem pay_apply (v0 : Vec Ideal S2000x128 .f32) (v1 : Vec Ideal S1x128 .f32) (v2 : Vec Ideal S128x128 .f32)
    (p : Fin 2000) (q : Fin 128) :
    k2_pay1 v0 v1 v2 (ix2 p q)
      = ∑ k : Fin 128, max (v0 (ix2 p k) + v1 (ix2 (0 : Fin 1) k)) Cert.Gnn.zeroW * v2 (ix2 k q) := by
  unfold k2_pay1
  refine (Cert.MatmulNN.matmul_zero_apply _ rfl none _ _ p q).trans ?_
  refine Finset.sum_congr rfl fun k _ => ?_
  simp only [truncf_apply, maximumf_apply, addf_apply, broadcast_apply, shapeCast_self, broadcastTo_1b_ab_apply]
  rfl

/-- The printed index maps over the five grid points: the feature and output windows move together down the rows, the
    bias and weight windows stay. -/
theorem idx_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 4 ∧ win2_3.index t (1 : Fin 2) = 0 :=
  (by decide +kernel : ∀ t : Fin grid2.N, _)

/-- Every one of the five row blocks is some grid point's. -/
theorem idx_onto : ∀ q0 : Fin 5, ∃ t : Fin cfg2.N, win2_3.index t = ![q0.val, 0] :=
  (by decide +kernel : ∀ q0 : Fin 5, ∃ t : Fin grid2.N, win2_3.index t = ![q0.val, 0])

/-- Row x of the feature block at point t is row (block index)·2000 + x of the feature array. -/
theorem iblk_feat (c : Dev nD) (t : Fin cfg2.N) (x : S2000x128.Idx) (i : S10000x128.Idx)
    (h0 : (i 0).val = win2_3.index t (0 : Fin 2) * 2000 + (x 0).val) (h1 : (i 1).val = (x 1).val) :
    (iblk2 V c 0 t : Vec Ideal S2000x128 .f32) x = (V c (Pipeline.arrRef spec2 0) : S10000x128.Idx → EReal) i := by
  obtain ⟨e0, e1, -⟩ := idx_facts t
  unfold iblk2
  rw [View.read_apply]
  refine congrArg (V c (Pipeline.arrRef spec2 0) : S10000x128.Idx → EReal) ?_
  funext a
  apply Fin.ext
  match a with
  | ⟨0, _⟩ => show win2_0.index t (0 : Fin 2) * 2000 + 1 * (x 0).val = (i 0).val; rw [e0, h0]; omega
  | ⟨1, _⟩ => show win2_0.index t (1 : Fin 2) * 128 + 1 * (x 1).val = (i 1).val; rw [e1, h1]; omega

/-- The bias block is the whole bias row. -/
theorem iblk_bias (c : Dev nD) (t : Fin cfg2.N) (x : S1x128.Idx) :
    (iblk2 V c 1 t : Vec Ideal S1x128 .f32) x = (V c (Pipeline.arrRef spec2 1) : S1x128.Idx → EReal) x := by
  obtain ⟨-, -, e0, e1, -⟩ := idx_facts t
  unfold iblk2
  rw [View.read_apply]
  refine congrArg (V c (Pipeline.arrRef spec2 1) : S1x128.Idx → EReal) ?_
  funext a
  apply Fin.ext
  match a with
  | ⟨0, _⟩ => show win2_1.index t (0 : Fin 2) * 1 + 1 * (x 0).val = (x 0).val; rw [e0]; omega
  | ⟨1, _⟩ => show win2_1.index t (1 : Fin 2) * 128 + 1 * (x 1).val = (x 1).val; rw [e1]; omega

/-- The weight block is the whole weight. -/
theorem iblk_weight (c : Dev nD) (t : Fin cfg2.N) (x : S128x128.Idx) :
    (iblk2 V c 2 t : Vec Ideal S128x128 .f32) x = (V c (Pipeline.arrRef spec2 2) : S128x128.Idx → EReal) x := by
  obtain ⟨-, -, -, -, e0, e1, -⟩ := idx_facts t
  unfold iblk2
  rw [View.read_apply]
  refine congrArg (V c (Pipeline.arrRef spec2 2) : S128x128.Idx → EReal) ?_
  funext a
  apply Fin.ext
  match a with
  | ⟨0, _⟩ => show win2_2.index t (0 : Fin 2) * 128 + 1 * (x 0).val = (x 0).val; rw [e0]; omega
  | ⟨1, _⟩ => show win2_2.index t (1 : Fin 2) * 128 + 1 * (x 1).val = (x 1).val; rw [e1]; omega

/-- The whole-array function the region computes, of the arrays it finds on entry. -/
abbrev G (c : Dev nD) : S10000x128.Idx → EReal :=
  Cert.Gnn.clampLin (V c (Pipeline.arrRef spec2 0) : S10000x128.Idx → EReal)
    (fun k => (V c (Pipeline.arrRef spec2 1) : S1x128.Idx → EReal) (ix2 (0 : Fin 1) k))
    (V c (Pipeline.arrRef spec2 2) : S128x128.Idx → EReal)

/-- What grid point t writes back is block t of `G`. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S2000x128) hz, View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  obtain ⟨-, -, -, -, -, -, -, e31⟩ := idx_facts t
  show k2_pay1 (iblk2 V c 0 t) (iblk2 V c 1 t) (iblk2 V c 2 t) (ix2 p q)
    = G V c (((cfg2.win 3).blk t).view.emb (ix2 p q))
  refine (pay_apply (iblk2 V c 0 t) (iblk2 V c 1 t) (iblk2 V c 2 t) p q).trans ?_
  unfold G Cert.Gnn.clampLin
  refine Finset.sum_congr rfl fun k _ => ?_
  rw [iblk_feat V c t (ix2 p k) (ix2 (((cfg2.win 3).blk t).view.emb (ix2 p q) 0) k)
        (by show win2_3.index t (0 : Fin 2) * 2000 + 1 * p.val = win2_3.index t (0 : Fin 2) * 2000 + p.val; omega) rfl,
    iblk_bias V c t (ix2 (0 : Fin 1) k),
    iblk_weight V c t (ix2 k q)]
  refine congrArg (fun z => _ * (V c (Pipeline.arrRef spec2 2) : S128x128.Idx → EReal) z) ?_
  funext a
  apply Fin.ext
  match a with
  | ⟨0, _⟩ => rfl
  | ⟨1, _⟩ => show q.val = win2_3.index t (1 : Fin 2) * 128 + 1 * q.val; rw [e31]; omega

/-- An index of the array is in point t's block iff each coordinate is in the block's range on its axis. -/
theorem mem_blk (t : Fin cfg2.N) (i : S10000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole (Pipeline.arrRef spec2 3)).slice (win2_3.rect t)).set ↔ _
  rw [View.set_slice_whole, Rect.mem_set_unit]
  exact Iff.rfl

/-- The five blocks tile the output array. -/
theorem cover (i : S10000x128.Idx) :
    ∃ t : Fin cfg2.N, (cfg2.win 3).flush t = true ∧ i ∈ ((cfg2.win 3).blk t).view.set := by
  have hi0 : (i 0).val < 10000 := (i 0).isLt
  have hi1 : (i 1).val < 128 := (i 1).isLt
  obtain ⟨t, ht⟩ := idx_onto ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- After the region the output array holds `G` of the entry arrays. -/
theorem final (c : Dev nD) : (dat2 V c).arrAt 3 cfg2.N = G V c :=
  (dat2 V c).arrAt_eq_of_cover 3 (G V c) (fun t _ => flushed_eq V c t) cover

end Cert.KernelIdeal.Region2

end
-- ==== Proof.Region3.lean ====
/-
  Region 3 of the kernel program: the last layer's bias added to every row, on row blocks.

  The pallas_call walks the 10000 rows in five blocks of 2000; at grid point t its body loads rows
  2000·t … 2000·t + 1999 of the aggregated features and the whole [1, 128] bias row and stores their sum.  Each
  block is the matching block of rows of ONE whole-array function (Cert.Gnn.addBias) and the five blocks tile the
  output array.  Stated for any entry contents `V`.
-/
import proofs.«113849_j22565758173966_1_alg».proof.Proof.Gen.KernelIdeal.Frame
import proofs.«113849_j22565758173966_1_alg».proof.Proof.Spec
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of a block. -/
theorem pay_apply (v0 : Vec Ideal S2000x128 .f32) (v1 : Vec Ideal S1x128 .f32) (p : Fin 2000) (q : Fin 128) :
    k3_pay1 v0 v1 (ix2 p q) = v0 (ix2 p q) + v1 (ix2 (0 : Fin 1) q) := by
  unfold k3_pay1
  simp only [addf_apply, shapeCast_self, broadcastTo_1b_ab_apply]

/-- The printed index maps over the five grid points. -/
theorem idx_facts : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (0 : Fin 2) ≤ 4 ∧ win3_2.index t (1 : Fin 2) = 0 :=
  (by decide +kernel : ∀ t : Fin grid3.N, _)

/-- Every one of the five row blocks is some grid point's. -/
theorem idx_onto : ∀ q0 : Fin 5, ∃ t : Fin cfg3.N, win3_2.index t = ![q0.val, 0] :=
  (by decide +kernel : ∀ q0 : Fin 5, ∃ t : Fin grid3.N, win3_2.index t = ![q0.val, 0])

/-- Row x of the feature block at point t is row (block index)·2000 + x of the feature array. -/
theorem iblk_feat (c : Dev nD) (t : Fin cfg3.N) (x : S2000x128.Idx) (i : S10000x128.Idx)
    (h0 : (i 0).val = win3_2.index t (0 : Fin 2) * 2000 + (x 0).val) (h1 : (i 1).val = (x 1).val) :
    (iblk3 V c 0 t : Vec Ideal S2000x128 .f32) x = (V c (Pipeline.arrRef spec3 0) : S10000x128.Idx → EReal) i := by
  obtain ⟨e0, e1, -⟩ := idx_facts t
  unfold iblk3
  rw [View.read_apply]
  refine congrArg (V c (Pipeline.arrRef spec3 0) : S10000x128.Idx → EReal) ?_
  funext a
  apply Fin.ext
  match a with
  | ⟨0, _⟩ => show win3_0.index t (0 : Fin 2) * 2000 + 1 * (x 0).val = (i 0).val; rw [e0, h0]; omega
  | ⟨1, _⟩ => show win3_0.index t (1 : Fin 2) * 128 + 1 * (x 1).val = (i 1).val; rw [e1, h1]; omega

/-- The bias block is the whole bias row. -/
theorem iblk_bias (c : Dev nD) (t : Fin cfg3.N) (x : S1x128.Idx) :
    (iblk3 V c 1 t : Vec Ideal S1x128 .f32) x = (V c (Pipeline.arrRef spec3 1) : S1x128.Idx → EReal) x := by
  obtain ⟨-, -, e0, e1, -⟩ := idx_facts t
  unfold iblk3
  rw [View.read_apply]
  refine congrArg (V c (Pipeline.arrRef spec3 1) : S1x128.Idx → EReal) ?_
  funext a
  apply Fin.ext
  match a with
  | ⟨0, _⟩ => show win3_1.index t (0 : Fin 2) * 1 + 1 * (x 0).val = (x 0).val; rw [e0]; omega
  | ⟨1, _⟩ => show win3_1.index t (1 : Fin 2) * 128 + 1 * (x 1).val = (x 1).val; rw [e1]; omega

/-- The whole-array function the region computes, of the arrays it finds on entry. -/
abbrev G (c : Dev nD) : S10000x128.Idx → EReal :=
  Cert.Gnn.addBias (V c (Pipeline.arrRef spec3 0) : S10000x128.Idx → EReal)
    (fun k => (V c (Pipeline.arrRef spec3 1) : S1x128.Idx → EReal) (ix2 (0 : Fin 1) k))

/-- What grid point t writes back is block t of `G`. -/
theorem flushed_eq (c : Dev nD) (t : Fin cfg3.N) :
    (dat3 V c).flushed 2 t = ((cfg3.win 2).blk t).view.read (Elt Ideal) (G V c) := by
  show (cfg3.win 2).cut (grid3.coords t) ((dat3 V c).after 2 t) = _
  rw [after3_2]
  unfold out3_2
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  obtain ⟨-, -, -, -, -, e21⟩ := idx_facts t
  show k3_pay1 (iblk3 V c 0 t) (iblk3 V c 1 t) (ix2 p q) = G V c (((cfg3.win 2).blk t).view.emb (ix2 p q))
  refine (pay_apply (iblk3 V c 0 t) (iblk3 V c 1 t) p q).trans ?_
  unfold G Cert.Gnn.addBias
  have hq : (((cfg3.win 2).blk t).view.emb (ix2 p q) 1).val = q.val := by
    show win3_2.index t (1 : Fin 2) * 128 + 1 * q.val = q.val; rw [e21]; omega
  refine congrArg₂ (· + ·) ?_ ?_
  · exact iblk_feat V c t (ix2 p q) (ix2 (((cfg3.win 2).blk t).view.emb (ix2 p q) 0) (((cfg3.win 2).blk t).view.emb (ix2 p q) 1))
      (by show win3_2.index t (0 : Fin 2) * 2000 + 1 * p.val = win3_2.index t (0 : Fin 2) * 2000 + p.val; omega) hq
  · refine (iblk_bias V c t (ix2 (0 : Fin 1) q)).trans ?_
    refine congrArg (V c (Pipeline.arrRef spec3 1) : S1x128.Idx → EReal) ?_
    funext a
    apply Fin.ext
    match a with
    | ⟨0, _⟩ => rfl
    | ⟨1, _⟩ => exact hq.symm

/-- An index of the array is in point t's block iff each coordinate is in the block's range on its axis. -/
theorem mem_blk (t : Fin cfg3.N) (i : S10000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole (Pipeline.arrRef spec3 2)).slice (win3_2.rect t)).set ↔ _
  rw [View.set_slice_whole, Rect.mem_set_unit]
  exact Iff.rfl

/-- The five blocks tile the output array. -/
theorem cover (i : S10000x128.Idx) :
    ∃ t : Fin cfg3.N, (cfg3.win 2).flush t = true ∧ i ∈ ((cfg3.win 2).blk t).view.set := by
  have hi0 : (i 0).val < 10000 := (i 0).isLt
  have hi1 : (i 1).val < 128 := (i 1).isLt
  obtain ⟨t, ht⟩ := idx_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- After the region the output array holds `G` of the entry arrays. -/
theorem final (c : Dev nD) : (dat3 V c).arrAt 2 cfg3.N = G V c :=
  (dat3 V c).arrAt_eq_of_cover 2 (G V c) (fun t _ => flushed_eq V c t) cover

end Cert.KernelIdeal.Region3

end
-- ==== Proof.Region4.lean ====
/-
  Region 4 of the kernel program: the mean-pooled linear head, in one grid point.

  The body loads the whole [64, 128] array of per-graph sums, the [64, 1] column of node counts, the [128, 1] head
  weight and the [1, 1] head bias, and stores

      out[g, 0] = Σ_k (sums[g, k] / max(count[g, 0], 1)) · Wp[k, 0] + b[0, 0]

  (the change of float format before the matrix unit is the identity here).  The one block is the whole output
  array, so after the region the output array is Cert.Gnn.meanHead of the arrays found on entry.  Stated for any
  entry contents `V`.
-/
import proofs.«113849_j22565758173966_1_alg».proof.Proof.Gen.KernelIdeal.Frame
import proofs.«113849_j22565758173966_1_alg».proof.Proof.Spec
import proofs.«113849_j22565758173966_1_alg».proof.Proof.LibMatmulNN
import proofs.«113849_j22565758173966_1_alg».proof.Proof.LibKeepdimsColumn
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (g, q). -/
theorem pay_apply (v0 : Vec Ideal S64x128 .f32) (v1 : Vec Ideal S64x1 .f32) (v2 : Vec Ideal S128x1 .f32) (v3 : Vec Ideal S1x1 .f32)
    (g : Fin 64) (q : Fin 1) :
    k4_pay1 v0 v1 v2 v3 (ix2 g q)
      = (∑ k : Fin 128, Ideal.div (v0 (ix2 g k)) (max (v1 (ix2 g (0 : Fin 1))) Cert.Gnn.oneW) * v2 (ix2 k q))
        + v3 (ix2 (0 : Fin 1) q) := by
  unfold k4_pay1
  simp only [addf_apply]
  refine congrArg₂ (· + ·) ?_ ?_
  · refine (Cert.MatmulNN.matmul_zero_apply _ rfl none _ _ g q).trans ?_
    refine Finset.sum_congr rfl fun k _ => ?_
    simp only [truncf_apply, divf_apply, maximumf_apply, broadcast_apply, shapeCast_self,
      Cert.KeepdimsColumn.broadcastTo_a1_ab_apply]
    rfl
  · simp only [shapeCast_self, broadcastTo_1b_ab_apply]

/-- Every window's one block sits at block index zero on both axes. -/
theorem idx_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- The sums block is the whole array. -/
theorem iblk_sums (c : Dev nD) (t : Fin cfg4.N) (x : S64x128.Idx) :
    (iblk4 V c 0 t : Vec Ideal S64x128 .f32) x = (V c (Pipeline.arrRef spec4 0) : S64x128.Idx → EReal) x := by
  obtain ⟨e0, e1, -⟩ := idx_facts t
  unfold iblk4
  rw [View.read_apply]
  refine congrArg (V c (Pipeline.arrRef spec4 0) : S64x128.Idx → EReal) ?_
  funext a
  apply Fin.ext
  match a with
  | ⟨0, _⟩ => show win4_0.index t (0 : Fin 2) * 64 + 1 * (x 0).val = (x 0).val; rw [e0]; omega
  | ⟨1, _⟩ => show win4_0.index t (1 : Fin 2) * 128 + 1 * (x 1).val = (x 1).val; rw [e1]; omega

/-- The counts block is the whole column. -/
theorem iblk_cnt (c : Dev nD) (t : Fin cfg4.N) (x : S64x1.Idx) :
    (iblk4 V c 1 t : Vec Ideal S64x1 .f32) x = (V c (Pipeline.arrRef spec4 1) : S64x1.Idx → EReal) x := by
  obtain ⟨-, -, e0, e1, -⟩ := idx_facts t
  unfold iblk4
  rw [View.read_apply]
  refine congrArg (V c (Pipeline.arrRef spec4 1) : S64x1.Idx → EReal) ?_
  funext a
  apply Fin.ext
  match a with
  | ⟨0, _⟩ => show win4_1.index t (0 : Fin 2) * 64 + 1 * (x 0).val = (x 0).val; rw [e0]; omega
  | ⟨1, _⟩ => show win4_1.index t (1 : Fin 2) * 1 + 1 * (x 1).val = (x 1).val; rw [e1]; omega

/-- The weight block is the whole head weight. -/
theorem iblk_weight (c : Dev nD) (t : Fin cfg4.N) (x : S128x1.Idx) :
    (iblk4 V c 2 t : Vec Ideal S128x1 .f32) x = (V c (Pipeline.arrRef spec4 2) : S128x1.Idx → EReal) x := by
  obtain ⟨-, -, -, -, e0, e1, -⟩ := idx_facts t
  unfold iblk4
  rw [View.read_apply]
  refine congrArg (V c (Pipeline.arrRef spec4 2) : S128x1.Idx → EReal) ?_
  funext a
  apply Fin.ext
  match a with
  | ⟨0, _⟩ => show win4_2.index t (0 : Fin 2) * 128 + 1 * (x 0).val = (x 0).val; rw [e0]; omega
  | ⟨1, _⟩ => show win4_2.index t (1 : Fin 2) * 1 + 1 * (x 1).val = (x 1).val; rw [e1]; omega

/-- The bias block is the whole [1, 1] bias. -/
theorem iblk_bias (c : Dev nD) (t : Fin cfg4.N) (x : S1x1.Idx) :
    (iblk4 V c 3 t : Vec Ideal S1x1 .f32) x = (V c (Pipeline.arrRef spec4 3) : S1x1.Idx → EReal) x := by
  obtain ⟨-, -, -, -, -, -, e0, e1, -⟩ := idx_facts t
  unfold iblk4
  rw [View.read_apply]
  refine congrArg (V c (Pipeline.arrRef spec4 3) : S1x1.Idx → EReal) ?_
  funext a
  apply Fin.ext
  match a with
  | ⟨0, _⟩ => show win4_3.index t (0 : Fin 2) * 1 + 1 * (x 0).val = (x 0).val; rw [e0]; omega
  | ⟨1, _⟩ => show win4_3.index t (1 : Fin 2) * 1 + 1 * (x 1).val = (x 1).val; rw [e1]; omega

/-- The whole-array function the region computes, of the arrays it finds on entry. -/
abbrev G (c : Dev nD) : S64x1.Idx → EReal :=
  Cert.Gnn.meanHead (V c (Pipeline.arrRef spec4 0) : S64x128.Idx → EReal)
    (fun g => (V c (Pipeline.arrRef spec4 1) : S64x1.Idx → EReal) (ix2 g (0 : Fin 1)))
    (V c (Pipeline.arrRef spec4 2) : S128x1.Idx → EReal)
    (fun q => (V c (Pipeline.arrRef spec4 3) : S1x1.Idx → EReal) (ix2 (0 : Fin 1) q))

/-- A block coordinate's place in the output array: the same coordinate. -/
theorem emb_out (t : Fin cfg4.N) (g : Fin 64) (q : Fin 1) :
    ((cfg4.win 4).blk t).view.emb (ix2 g q) = (ix2 g q : S64x1.Idx) := by
  obtain ⟨-, -, -, -, -, -, -, -, e0, e1⟩ := idx_facts t
  funext a
  apply Fin.ext
  match a with
  | ⟨0, _⟩ => show win4_4.index t (0 : Fin 2) * 64 + 1 * g.val = g.val; rw [e0]; omega
  | ⟨1, _⟩ => show win4_4.index t (1 : Fin 2) * 1 + 1 * q.val = q.val; rw [e1]; omega

/-- What the grid point writes back is the one block of `G`. -/
theorem flushed_eq (c : Dev nD) (t : Fin cfg4.N) :
    (dat4 V c).flushed 4 t = ((cfg4.win 4).blk t).view.read (Elt Ideal) (G V c) := by
  show (cfg4.win 4).cut (grid4.coords t) ((dat4 V c).after 4 t) = _
  rw [after4_4]
  unfold out4_4
  rw [View.canon_unit_zero hz]
  simp only [View.ld_unit_zero (S := S64x128) hz, View.ld_unit_zero (S := S64x1) hz, View.ld_unit_zero (S := S128x1) hz,
    View.ld_unit_zero (S := S1x1) hz]
  funext j
  obtain ⟨g, q, rfl⟩ : ∃ (g : Fin 64) (q : Fin 1), j = ix2 g q := ⟨j 0, j 1, eq_ix2 j⟩
  show k4_pay1 (iblk4 V c 0 t) (iblk4 V c 1 t) (iblk4 V c 2 t) (iblk4 V c 3 t) (ix2 g q)
    = G V c (((cfg4.win 4).blk t).view.emb (ix2 g q))
  rw [emb_out t g q]
  refine (pay_apply (iblk4 V c 0 t) (iblk4 V c 1 t) (iblk4 V c 2 t) (iblk4 V c 3 t) g q).trans ?_
  unfold G Cert.Gnn.meanHead
  rw [iblk_cnt V c t (ix2 g (0 : Fin 1)), iblk_bias V c t (ix2 (0 : Fin 1) q)]
  refine congrArg₂ (· + ·) (Finset.sum_congr rfl fun k _ => ?_) rfl
  rw [iblk_sums V c t (ix2 g k), iblk_weight V c t (ix2 k q)]

/-- An index of the array is in the point's block iff each coordinate is in the block's range on its axis. -/
theorem mem_blk (t : Fin cfg4.N) (i : S64x1.Idx) :
    i ∈ ((cfg4.win 4).blk t).view.set ↔ ∀ a : Fin 2, win4_4.index t a * S64x1.size a ≤ (i a).val ∧ (i a).val < win4_4.index t a * S64x1.size a + S64x1.size a := by
  show i ∈ ((View.whole (Pipeline.arrRef spec4 4)).slice (win4_4.rect t)).set ↔ _
  rw [View.set_slice_whole, Rect.mem_set_unit]
  exact Iff.rfl

/-- The one block is the whole output array. -/
theorem cover (i : S64x1.Idx) :
    ∃ t : Fin cfg4.N, (cfg4.win 4).flush t = true ∧ i ∈ ((cfg4.win 4).blk t).view.set := by
  have hi0 : (i 0).val < 64 := (i 0).isLt
  have hi1 : (i 1).val < 1 := (i 1).isLt
  obtain ⟨-, -, -, -, -, -, -, -, e0, e1⟩ := idx_facts t4_0
  refine ⟨t4_0, flush4_4 t4_0, ?_⟩
  rw [mem_blk]
  intro a
  match a with
  | ⟨0, _⟩ => show win4_4.index t4_0 (0 : Fin 2) * 64 ≤ (i 0).val ∧ (i 0).val < win4_4.index t4_0 (0 : Fin 2) * 64 + 64; rw [e0]; omega
  | ⟨1, _⟩ => show win4_4.index t4_0 (1 : Fin 2) * 1 ≤ (i 1).val ∧ (i 1).val < win4_4.index t4_0 (1 : Fin 2) * 1 + 1; rw [e1]; omega

/-- After the region the output array holds `G` of the entry arrays. -/
theorem final (c : Dev nD) : (dat4 V c).arrAt 4 cfg4.N = G V c :=
  (dat4 V c).arrAt_eq_of_cover 4 (G V c) (fun t _ => flushed_eq V c t) cover

end Cert.KernelIdeal.Region4

end
-- ==== Proof.KValue.lean ====
/-
  The idealized kernel program's result as the network of its arguments.

  Boundary by boundary: the first region's output is the plain product x·W1 (its bias row is zero, and x + 0 = x
  on the extended reals); each stretch of host operations hops the previous region's output over the edges (the
  shared `hop`); the second and third regions' outputs are the clamped steps of the hops before them; the
  fourth region adds the last bias; the last stretch pools the rows and counts the nodes; the last region is the
  pooled head.  Composed, the result buffer after the last region is `net` of the eleven arguments — the same
  function the reference's result is.
-/
import proofs.«113849_j22565758173966_1_alg».proof.Proof.Gen.KernelIdeal.Frame
import proofs.«113849_j22565758173966_1_alg».proof.Proof.KCarry
import proofs.«113849_j22565758173966_1_alg».proof.Proof.KStretch0
import proofs.«113849_j22565758173966_1_alg».proof.Proof.KStretch1
import proofs.«113849_j22565758173966_1_alg».proof.Proof.KStretch2
import proofs.«113849_j22565758173966_1_alg».proof.Proof.KStretch3
import proofs.«113849_j22565758173966_1_alg».proof.Proof.KStretch4
import proofs.«113849_j22565758173966_1_alg».proof.Proof.Region0
import proofs.«113849_j22565758173966_1_alg».proof.Proof.Region1
import proofs.«113849_j22565758173966_1_alg».proof.Proof.Region2
import proofs.«113849_j22565758173966_1_alg».proof.Proof.Region3
import proofs.«113849_j22565758173966_1_alg».proof.Proof.Region4
import proofs.«113849_j22565758173966_1_alg».proof.Proof.Glue

set_option maxRecDepth 16384

noncomputable section

open Idealize.ShloMosaic Idealize.ShloMosaic.TcCoe Idealize.SL.Sem Idealize.ShloMosaic.StableHlo Idealize.ShloMosaic.ValueIdx

namespace Cert.KernelIdeal.Net

open Cert.KernelIdeal Cert.KernelIdeal.Gen

variable (m : (ℓ : Loc nD τ sig) → Buf (Elt Ideal) ℓ) (ρ : Dev nD → PrngReg)

/-- After the first region: x·W1. -/
theorem t1 (c : Dev nD) : (W2 m ρ c (Proc.devRef .tc main_v30) : S10000x128.Idx → EReal) = Cert.Gnn.lin ((m ((c : Thread nD τ).loc main_arg0)) : S10000x128.Idx → EReal) ((m ((c : Thread nD τ).loc main_arg3)) : S128x128.Idx → EReal) := by
  refine (W2_arr m ρ c 3).trans ((Region0.final (V1 m ρ) c).trans ?_)
  have e0 := Carry.at1_main_arg0 m ρ c
  have e3 := Carry.at1_main_arg3 m ρ c
  have ez : (fun k => (W1 m ρ c (Proc.devRef .tc main_v29) : S1x128.Idx → EReal) (ix2 (0 : Fin 1) k)) = fun _ => Cert.Gnn.zeroW :=
    funext (Stretch0.zeroRow m ρ c)
  show Cert.Gnn.affineLin (W1 m ρ c (Proc.devRef .tc main_arg0) : S10000x128.Idx → EReal)
      (fun k => (W1 m ρ c (Proc.devRef .tc main_v29) : S1x128.Idx → EReal) (ix2 (0 : Fin 1) k))
      (W1 m ρ c (Proc.devRef .tc main_arg3) : S128x128.Idx → EReal) = _
  rw [e0, e3, ez]
  exact Cert.Gnn.affineLin_zero _ _

/-- After the second stretch: the first hop. -/
theorem a1 (c : Dev nD) : W3 m ρ c (Proc.devRef .tc main_v43) = Cert.Gnn.Glue.hop (m ((c : Thread nD τ).loc main_arg1)) (Cert.Gnn.lin ((m ((c : Thread nD τ).loc main_arg0)) : S10000x128.Idx → EReal) ((m ((c : Thread nD τ).loc main_arg3)) : S128x128.Idx → EReal)) :=
  Stretch1.agg m ρ c _ (t1 m ρ c)

/-- After the second region: the clamped step of the first hop. -/
theorem t2 (c : Dev nD) : (W4 m ρ c (Proc.devRef .tc main_v45) : S10000x128.Idx → EReal) = Cert.Gnn.clampLin (Cert.Gnn.Glue.hop (m ((c : Thread nD τ).loc main_arg1)) (Cert.Gnn.lin ((m ((c : Thread nD τ).loc main_arg0)) : S10000x128.Idx → EReal) ((m ((c : Thread nD τ).loc main_arg3)) : S128x128.Idx → EReal))) (fun k => ((m ((c : Thread nD τ).loc main_arg4)) : S128.Idx → EReal) (ix1 k)) ((m ((c : Thread nD τ).loc main_arg5)) : S128x128.Idx → EReal) := by
  refine (W4_arr m ρ c 3).trans ((Region1.final (V3 m ρ) c).trans ?_)
  have ea := a1 m ρ c
  have ew := Carry.at3_main_arg5 m ρ c
  have eb : (fun k => (W3 m ρ c (Proc.devRef .tc main_v44) : S1x128.Idx → EReal) (ix2 (0 : Fin 1) k))
      = fun k => ((m ((c : Thread nD τ).loc main_arg4)) : S128.Idx → EReal) (ix1 k) := funext (Stretch1.biasRow m ρ c)
  show Cert.Gnn.clampLin (W3 m ρ c (Proc.devRef .tc main_v43) : S10000x128.Idx → EReal)
      (fun k => (W3 m ρ c (Proc.devRef .tc main_v44) : S1x128.Idx → EReal) (ix2 (0 : Fin 1) k))
      (W3 m ρ c (Proc.devRef .tc main_arg5) : S128x128.Idx → EReal) = _
  rw [ea, ew, eb]

/-- After the third stretch: the second hop. -/
theorem a2 (c : Dev nD) : W5 m ρ c (Proc.devRef .tc main_v58) = Cert.Gnn.Glue.hop (m ((c : Thread nD τ).loc main_arg1)) (Cert.Gnn.clampLin (Cert.Gnn.Glue.hop (m ((c : Thread nD τ).loc main_arg1)) (Cert.Gnn.lin ((m ((c : Thread nD τ).loc main_arg0)) : S10000x128.Idx → EReal) ((m ((c : Thread nD τ).loc main_arg3)) : S128x128.Idx → EReal))) (fun k => ((m ((c : Thread nD τ).loc main_arg4)) : S128.Idx → EReal) (ix1 k)) ((m ((c : Thread nD τ).loc main_arg5)) : S128x128.Idx → EReal)) :=
  Stretch2.agg m ρ c _ (t2 m ρ c)

/-- After the third region: the clamped step of the second hop. -/
theorem t3 (c : Dev nD) : (W6 m ρ c (Proc.devRef .tc main_v60) : S10000x128.Idx → EReal) = Cert.Gnn.clampLin (Cert.Gnn.Glue.hop (m ((c : Thread nD τ).loc main_arg1)) (Cert.Gnn.clampLin (Cert.Gnn.Glue.hop (m ((c : Thread nD τ).loc main_arg1)) (Cert.Gnn.lin ((m ((c : Thread nD τ).loc main_arg0)) : S10000x128.Idx → EReal) ((m ((c : Thread nD τ).loc main_arg3)) : S128x128.Idx → EReal))) (fun k => ((m ((c : Thread nD τ).loc main_arg4)) : S128.Idx → EReal) (ix1 k)) ((m ((c : Thread nD τ).loc main_arg5)) : S128x128.Idx → EReal))) (fun k => ((m ((c : Thread nD τ).loc main_arg6)) : S128.Idx → EReal) (ix1 k)) ((m ((c : Thread nD τ).loc main_arg7)) : S128x128.Idx → EReal) := by
  refine (W6_arr m ρ c 3).trans ((Region2.final (V5 m ρ) c).trans ?_)
  have ea := a2 m ρ c
  have ew := Carry.at5_main_arg7 m ρ c
  have eb : (fun k => (W5 m ρ c (Proc.devRef .tc main_v59) : S1x128.Idx → EReal) (ix2 (0 : Fin 1) k))
      = fun k => ((m ((c : Thread nD τ).loc main_arg6)) : S128.Idx → EReal) (ix1 k) := funext (Stretch2.biasRow m ρ c)
  show Cert.Gnn.clampLin (W5 m ρ c (Proc.devRef .tc main_v58) : S10000x128.Idx → EReal)
      (fun k => (W5 m ρ c (Proc.devRef .tc main_v59) : S1x128.Idx → EReal) (ix2 (0 : Fin 1) k))
      (W5 m ρ c (Proc.devRef .tc main_arg7) : S128x128.Idx → EReal) = _
  rw [ea, ew, eb]

/-- After the fourth stretch: the third hop. -/
theorem a3 (c : Dev nD) : W7 m ρ c (Proc.devRef .tc main_v73) = Cert.Gnn.Glue.hop (m ((c : Thread nD τ).loc main_arg1)) (Cert.Gnn.clampLin (Cert.Gnn.Glue.hop (m ((c : Thread nD τ).loc main_arg1)) (Cert.Gnn.clampLin (Cert.Gnn.Glue.hop (m ((c : Thread nD τ).loc main_arg1)) (Cert.Gnn.lin ((m ((c : Thread nD τ).loc main_arg0)) : S10000x128.Idx → EReal) ((m ((c : Thread nD τ).loc main_arg3)) : S128x128.Idx → EReal))) (fun k => ((m ((c : Thread nD τ).loc main_arg4)) : S128.Idx → EReal) (ix1 k)) ((m ((c : Thread nD τ).loc main_arg5)) : S128x128.Idx → EReal))) (fun k => ((m ((c : Thread nD τ).loc main_arg6)) : S128.Idx → EReal) (ix1 k)) ((m ((c : Thread nD τ).loc main_arg7)) : S128x128.Idx → EReal)) :=
  Stretch3.agg m ρ c _ (t3 m ρ c)

/-- After the fourth region: the last bias added. -/
theorem h3 (c : Dev nD) : (W8 m ρ c (Proc.devRef .tc main_v75) : S10000x128.Idx → EReal) = Cert.Gnn.addBias (Cert.Gnn.Glue.hop (m ((c : Thread nD τ).loc main_arg1)) (Cert.Gnn.clampLin (Cert.Gnn.Glue.hop (m ((c : Thread nD τ).loc main_arg1)) (Cert.Gnn.clampLin (Cert.Gnn.Glue.hop (m ((c : Thread nD τ).loc main_arg1)) (Cert.Gnn.lin ((m ((c : Thread nD τ).loc main_arg0)) : S10000x128.Idx → EReal) ((m ((c : Thread nD τ).loc main_arg3)) : S128x128.Idx → EReal))) (fun k => ((m ((c : Thread nD τ).loc main_arg4)) : S128.Idx → EReal) (ix1 k)) ((m ((c : Thread nD τ).loc main_arg5)) : S128x128.Idx → EReal))) (fun k => ((m ((c : Thread nD τ).loc main_arg6)) : S128.Idx → EReal) (ix1 k)) ((m ((c : Thread nD τ).loc main_arg7)) : S128x128.Idx → EReal))) (fun k => ((m ((c : Thread nD τ).loc main_arg8)) : S128.Idx → EReal) (ix1 k)) := by
  refine (W8_arr m ρ c 2).trans ((Region3.final (V7 m ρ) c).trans ?_)
  have ea := a3 m ρ c
  have eb : (fun k => (W7 m ρ c (Proc.devRef .tc main_v74) : S1x128.Idx → EReal) (ix2 (0 : Fin 1) k))
      = fun k => ((m ((c : Thread nD τ).loc main_arg8)) : S128.Idx → EReal) (ix1 k) := funext (Stretch3.biasRow m ρ c)
  show Cert.Gnn.addBias (W7 m ρ c (Proc.devRef .tc main_v73) : S10000x128.Idx → EReal)
      (fun k => (W7 m ρ c (Proc.devRef .tc main_v74) : S1x128.Idx → EReal) (ix2 (0 : Fin 1) k)) = _
  rw [ea, eb]

/-- After the last stretch: the pooled rows. -/
theorem pooled (c : Dev nD) : W9 m ρ c (Proc.devRef .tc main_v78) = Cert.Gnn.Glue.pool (m ((c : Thread nD τ).loc main_arg2)) (Cert.Gnn.addBias (Cert.Gnn.Glue.hop (m ((c : Thread nD τ).loc main_arg1)) (Cert.Gnn.clampLin (Cert.Gnn.Glue.hop (m ((c : Thread nD τ).loc main_arg1)) (Cert.Gnn.clampLin (Cert.Gnn.Glue.hop (m ((c : Thread nD τ).loc main_arg1)) (Cert.Gnn.lin ((m ((c : Thread nD τ).loc main_arg0)) : S10000x128.Idx → EReal) ((m ((c : Thread nD τ).loc main_arg3)) : S128x128.Idx → EReal))) (fun k => ((m ((c : Thread nD τ).loc main_arg4)) : S128.Idx → EReal) (ix1 k)) ((m ((c : Thread nD τ).loc main_arg5)) : S128x128.Idx → EReal))) (fun k => ((m ((c : Thread nD τ).loc main_arg6)) : S128.Idx → EReal) (ix1 k)) ((m ((c : Thread nD τ).loc main_arg7)) : S128x128.Idx → EReal))) (fun k => ((m ((c : Thread nD τ).loc main_arg8)) : S128.Idx → EReal) (ix1 k))) :=
  Stretch4.sums m ρ c _ (h3 m ρ c)

/-- After the last region: the result buffer holds the network of the arguments. -/
theorem result (c : Dev nD) : W10 m ρ c (Proc.devRef .tc main_v85)
    = Cert.Gnn.Glue.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W10_arr m ρ c 4).trans ((Region4.final (V9 m ρ) c).trans ?_)
  have es := pooled m ρ c
  have ew := Carry.at9_main_arg9 m ρ c
  have en : (fun g => (W9 m ρ c (Proc.devRef .tc main_v83) : S64x1.Idx → EReal) (ix2 g (0 : Fin 1)))
      = fun g => Cert.ReferenceIdeal.Read.val_main_v88 (F := Ideal) (m ((c : Thread nD τ).loc main_arg2)) (ix1 g) := funext (Stretch4.countCol m ρ c)
  have eb : (fun q => (W9 m ρ c (Proc.devRef .tc main_v84) : S1x1.Idx → EReal) (ix2 (0 : Fin 1) q))
      = fun q => ((m ((c : Thread nD τ).loc main_arg10)) : S1.Idx → EReal) (ix1 q) := funext (Stretch4.headBias m ρ c)
  show Cert.Gnn.meanHead (W9 m ρ c (Proc.devRef .tc main_v78) : S64x128.Idx → EReal)
      (fun g => (W9 m ρ c (Proc.devRef .tc main_v83) : S64x1.Idx → EReal) (ix2 g (0 : Fin 1)))
      (W9 m ρ c (Proc.devRef .tc main_arg9) : S128x1.Idx → EReal)
      (fun q => (W9 m ρ c (Proc.devRef .tc main_v84) : S1x1.Idx → EReal) (ix2 (0 : Fin 1) q)) = _
  rw [es, ew, en, eb]
  rfl

end Cert.KernelIdeal.Net

end
-- ==== Proof.lean ====
/-
  The certificate of a three-layer graph convolution network with a mean-pooled linear head.

  The kernel program computes, per layer, a hop of message passing over the edges (host operations: gather at the
  edges' sources, scale by the symmetric normalisation, scatter-add at the targets) and a dense step on the matrix
  unit (a Pallas kernel over five blocks of 2000 rows: bias, clamp at zero, product with the layer's weight), then
  pools the node rows per graph and applies the head (a last Pallas kernel: divide by the clamped node count,
  product with the head's weight, bias).  The reference computes the same steps with host operations only.

  Over the extended reals, where a change of float format is the identity and a matrix product is the plain sum:
    * the two programs' host glue is the same operations in the same order, carried as opaque functions
      (Proof/Glue.lean: `hop`, `pool`, the count);
    * each kernel region leaves in its output array one whole-array function of the arrays it found
      (Proof/Region0…4.lean), which is the reference's dense stage entry by entry (Proof/Glue.lean);
    * the only arithmetic law used is x + 0 = x (the first layer's kernel is launched with a zero bias), true at
      both infinities, so the precondition is never opened.
  Hence both results are `net` of the eleven arguments (Proof/KValue.lean `result`, Proof/Glue.lean `ref_eq_net`).

  The three frames: the two kernel programs' are the generated frame certificates; the reference's is its
  generated run with the result dropped.  `preserves` has no conjunct (the ideal pass rewrote nothing).
-/
import proofs.«113849_j22565758173966_1_alg».proof.Defs
import proofs.«113849_j22565758173966_1_alg».proof.Proof.Gen.Kernel
import proofs.«113849_j22565758173966_1_alg».proof.Proof.Gen.Kernel.Skeleton
import proofs.«113849_j22565758173966_1_alg».proof.Proof.Gen.Kernel.Launch
import proofs.«113849_j22565758173966_1_alg».proof.Proof.Gen.Kernel.Points
import proofs.«113849_j22565758173966_1_alg».proof.Proof.Gen.Kernel.Frame
import proofs.«113849_j22565758173966_1_alg».proof.Proof.Gen.KernelIdeal
import proofs.«113849_j22565758173966_1_alg».proof.Proof.Gen.KernelIdeal.Skeleton
import proofs.«113849_j22565758173966_1_alg».proof.Proof.Gen.KernelIdeal.Launch
import proofs.«113849_j22565758173966_1_alg».proof.Proof.Gen.KernelIdeal.Points
import proofs.«113849_j22565758173966_1_alg».proof.Proof.Gen.KernelIdeal.Frame
import proofs.«113849_j22565758173966_1_alg».proof.Proof.Gen.ReferenceIdeal
import proofs.«113849_j22565758173966_1_alg».proof.Proof.Gen.ReferenceIdeal.Run
import proofs.«113849_j22565758173966_1_alg».proof.Proof.Gen.ReferenceIdeal.Read
import proofs.«113849_j22565758173966_1_alg».proof.Proof.Gen.Pre_finite_inputs
import proofs.«113849_j22565758173966_1_alg».proof.Proof.KernelRun
import proofs.«113849_j22565758173966_1_alg».proof.Proof.KValue
import proofs.«113849_j22565758173966_1_alg».proof.Proof.Glue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the network of the (agreeing) arguments in their result arrays. -/
theorem algebraic : Cert.algebraic_KernelIdeal_ReferenceIdeal := by
  intro m ρ m' ρ' _ hagree
  refine ⟨fun c => Cert.Gnn.Glue.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Net.result m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v97_eq, Cert.Gnn.Glue.ref_eq_net, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
